-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x2 : Shape := ⟨2, ![1, 2]⟩
abbrev S100000x2 : Shape := ⟨2, ![100000, 2]⟩
abbrev S10000x2 : Shape := ⟨2, ![10000, 2]⟩
abbrev S10000 : Shape := ⟨1, ![10000]⟩
abbrev S10000x1 : Shape := ⟨2, ![10000, 1]⟩

abbrev nBuf : Space → Nat
  | .hbm => 107
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S1x2, .f32⟩
  | .hbm, ⟨106, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x2, .f32⟩
  | .local _ .vmem, ⟨33, _⟩ => ⟨S1x2, .f32⟩
  | .local _ .vmem, ⟨34, _⟩ => ⟨S10000x2, .f32⟩
  | .local _ .vmem, ⟨35, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S100000x2.size a
  hwx6_3 : ∀ i : grid6.Coords, EltTy.bits .f32 = 32 ∨ (Rect.block (s := S100000x2) S10000x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x2, .f32⟩
  | 9 => ⟨S2, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x2, .f32⟩
  | 120 => ⟨S1x2, .f32⟩
  | 121 => ⟨S100000x2, .f32⟩
  | 122 => ⟨S100000x2, .f32⟩
  | 123 => ⟨S_, .f32⟩
  | 124 => ⟨S100000, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000x1, .f32⟩
  | 1 => ⟨S100000x2, .f32⟩
  | 2 => ⟨S100000x2, .f32⟩
  | 3 => ⟨S100000x2, .f32⟩
  | 4 => ⟨S_, .f32⟩
  | 5 => ⟨S100000, .f32⟩
  | 6 => ⟨S100000x1, .f32⟩
  | 7 => ⟨S100000x1, .f32⟩
  | 8 => ⟨S100000x2, .f32⟩
  | 9 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call4_cst : Ref sig .tc := ⟨.hbm, 123, rfl⟩
abbrev main_call4_v0 : Ref sig .tc := ⟨.hbm, 124, rfl⟩
abbrev main_call4_cst_0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_v6 : Ref sig .tc := ⟨.hbm, 131, rfl⟩
abbrev main_call4_cst_1 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_v88 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.Spec.lean ====
/-
  The dense stages of a three-layer graph convolution with a two-class head, entry by entry on the extended reals, for
  any extents. Nothing here depends on a program.

  * `mm x w` — the matrix product: entry (p, q) is the sum over k of x(p, k) · w(k, q).
  * `biasRelu a b` — a bias vector added along every row, then the maximum with zero: max(a(p, q) + b(q), 0).
    `biasReluRow a r` is the same with the bias given as a one-row matrix r(0, q).
  * `logits h w b` — the affine head: (h · w)(p, q) + b(q); `logitsRow` with the bias as a one-row matrix.
  * `rowMax l p` — the maximum of row p of l, folded from −∞ (the f32 word 0xFF800000).
  * `logSoftmax l` — the row-wise log-softmax in its shifted form:
      (l(p, q) − M_p) − log Σ_k exp(l(p, k) − M_p),  M_p the row's maximum.
  * `head`, `headRow` — the log-softmax of the logits.
  A one-row matrix that is the recast of a vector reads the vector's entries, so the row forms at such a recast are the
  vector forms (`biasReluRow_cast`, `headRow_cast`).
-/
import Idealize.ShloMosaic.Lib.Pipeline.Value
import Idealize.ShloMosaic.Lib.ValueIdx
import Idealize.ShloMosaic.PureOps.Ideal

noncomputable section

namespace Cert.Spec

open Idealize.ShloMosaic Idealize.ShloMosaic.ValueIdx

variable {M K N : Nat}

/-- The matrix product, entry by entry. -/
def mm (x : FVec Ideal ⟨2, ![M, K]⟩ .f32) (w : FVec Ideal ⟨2, ![K, N]⟩ .f32) : FVec Ideal ⟨2, ![M, N]⟩ .f32 :=
  fun j => ∑ k : Fin K, x (ix2 (j 0) k) * w (ix2 k (j 1))

/-- A bias vector added along every row, then the maximum with zero. -/
def biasRelu (a : FVec Ideal ⟨2, ![M, N]⟩ .f32) (b : FVec Ideal ⟨1, ![N]⟩ .f32) : FVec Ideal ⟨2, ![M, N]⟩ .f32 :=
  fun j => max (a j + b (ix1 (j 1))) (Ideal.ofBits .f32 0x00000000#32)

/-- The same with the bias given as a one-row matrix. -/
def biasReluRow (a : FVec Ideal ⟨2, ![M, N]⟩ .f32) (r : FVec Ideal ⟨2, ![1, N]⟩ .f32) : FVec Ideal ⟨2, ![M, N]⟩ .f32 :=
  fun j => max (a j + r (ix2 (0 : Fin 1) (j 1))) (Ideal.ofBits .f32 0x00000000#32)

/-- The affine head: the product plus the bias along every row. -/
def logits (h : FVec Ideal ⟨2, ![M, K]⟩ .f32) (w : FVec Ideal ⟨2, ![K, N]⟩ .f32) (b : FVec Ideal ⟨1, ![N]⟩ .f32) :
    FVec Ideal ⟨2, ![M, N]⟩ .f32 :=
  fun j => (∑ k : Fin K, h (ix2 (j 0) k) * w (ix2 k (j 1))) + b (ix1 (j 1))

/-- The same with the bias given as a one-row matrix. -/
def logitsRow (h : FVec Ideal ⟨2, ![M, K]⟩ .f32) (w : FVec Ideal ⟨2, ![K, N]⟩ .f32) (r : FVec Ideal ⟨2, ![1, N]⟩ .f32) :
    FVec Ideal ⟨2, ![M, N]⟩ .f32 :=
  fun j => (∑ k : Fin K, h (ix2 (j 0) k) * w (ix2 k (j 1))) + r (ix2 (0 : Fin 1) (j 1))

/-- The maximum of row p, folded from −∞. -/
def rowMax (l : FVec Ideal ⟨2, ![M, N]⟩ .f32) (p : Fin M) : EReal :=
  (Finset.univ : Finset (Fin N)).fold max (Ideal.ofBits .f32 0xFF800000#32) (fun k => l (ix2 p k))

/-- The row-wise log-softmax in its shifted form. -/
def logSoftmax (l : FVec Ideal ⟨2, ![M, N]⟩ .f32) : FVec Ideal ⟨2, ![M, N]⟩ .f32 :=
  fun j => (l j - rowMax l (j 0)) - Ideal.log (∑ k : Fin N, Ideal.exp (l (ix2 (j 0) k) - rowMax l (j 0)))

/-- The head: the log-softmax of the logits. -/
def head (h : FVec Ideal ⟨2, ![M, K]⟩ .f32) (w : FVec Ideal ⟨2, ![K, N]⟩ .f32) (b : FVec Ideal ⟨1, ![N]⟩ .f32) :
    FVec Ideal ⟨2, ![M, N]⟩ .f32 :=
  logSoftmax (logits h w b)

/-- The same with the bias given as a one-row matrix. -/
def headRow (h : FVec Ideal ⟨2, ![M, K]⟩ .f32) (w : FVec Ideal ⟨2, ![K, N]⟩ .f32) (r : FVec Ideal ⟨2, ![1, N]⟩ .f32) :
    FVec Ideal ⟨2, ![M, N]⟩ .f32 :=
  logSoftmax (logitsRow h w r)

/-- A vector recast as a one-row matrix reads, at (0, q), the vector's entry q. -/
theorem rowCast_apply (b : FVec Ideal ⟨1, ![N]⟩ .f32) (h1 : (⟨1, ![N]⟩ : Shape).ShapeCasts ⟨2, ![1, N]⟩) (q : Fin N) :
    shapeCast ⟨2, ![1, N]⟩ b h1 (ix2 (0 : Fin 1) q) = b (ix1 q) :=
  shapeCast_apply b h1 (ix2 (0 : Fin 1) q) (ix1 q) (by
    rw [Shape.rowMajor_val_two, Shape.rowMajor_val_one]; show q.val = 0 * N + q.val; omega)

/-- The bias-and-maximum stage with the bias row a recast vector is the vector form. -/
theorem biasReluRow_cast (a : FVec Ideal ⟨2, ![M, N]⟩ .f32) (b : FVec Ideal ⟨1, ![N]⟩ .f32)
    (h1 : (⟨1, ![N]⟩ : Shape).ShapeCasts ⟨2, ![1, N]⟩) :
    biasReluRow a (shapeCast ⟨2, ![1, N]⟩ b h1) = biasRelu a b := by
  funext j
  unfold biasReluRow biasRelu
  rw [rowCast_apply b h1 (j 1)]

/-- The head with the bias row a recast vector is the vector form. -/
theorem headRow_cast (h : FVec Ideal ⟨2, ![M, K]⟩ .f32) (w : FVec Ideal ⟨2, ![K, N]⟩ .f32) (b : FVec Ideal ⟨1, ![N]⟩ .f32)
    (h1 : (⟨1, ![N]⟩ : Shape).ShapeCasts ⟨2, ![1, N]⟩) :
    headRow h w (shapeCast ⟨2, ![1, N]⟩ b h1) = head h w b := by
  unfold headRow head
  refine congrArg logSoftmax ?_
  funext j
  unfold logitsRow logits
  rw [rowCast_apply b h1 (j 1)]

end Cert.Spec

end
-- ==== Proof.HostFns.lean ====
/-
  The sparse half of the network, as whole-array functions of the edge list, at the ideal values, and the network itself.

  The edge list e : [2, E] gives E messages; every node also sends one to itself. `srcIds` and `dstIds` are the
  E + N sender and receiver ids (a row of e followed by 0 … N−1). The degree of a node is the number of messages it
  receives (`deg`: ones scattered with addition into zeros at the receivers); `dinv` is its inverse square root where
  the degree is positive and 0 elsewhere; the weight of a message is dinv(sender) · dinv(receiver) (`norm`, read through
  two gathers at the ids wrapped when negative, `wrapIds`), laid out as a column (`normCol`).
  One aggregation (`aggB`) gathers the rows of a node table at the senders, scales every gathered row by its message's
  weight, and adds the rows up at the receivers into a table of zeros. `agg` is the aggregation at an edge list's own
  ids and weights. A layer is the dense transform, the aggregation, the bias and the maximum with zero; the network is
  three layers and the log-softmax head (`Cert.Spec`).

  The dimension records and side conditions are the reference program's own, so the reference's stages are these
  functions by unfolding.
-/
import proofs.«122782_j74371653697680_1_alg».proof.ReferenceIdeal
import proofs.«122782_j74371653697680_1_alg».proof.Proof.Gen.ReferenceIdeal
import proofs.«122782_j74371653697680_1_alg».proof.Proof.Spec

noncomputable section

namespace Cert.Net

open Cert.ReferenceIdeal Cert.ReferenceIdeal.Gen Idealize.ShloMosaic Idealize.ShloMosaic.TcCoe

/-- Sender ids: row 0 of the edge list, then every node once. -/
def srcIds (e : IVec S2x1600000 32) : IVec S1700000 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Receiver ids: row 1 of the edge list, then every node once. -/
def dstIds (e : IVec S2x1600000 32) : IVec S1700000 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- Array indexing's wrap of a negative id: id + N where id < 0. -/
def wrapIds (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- Ids laid out as an index column. -/
def idCol (s : IVec S1700000 32) : IVec S1700000x1 32 :=
  broadcastInDim S1700000x1 ![0] bcast_S1700000_S1700000x1_0 s

/-- The number of messages each node receives. -/
def deg (d : IVec S1700000 32) : FVec Ideal S100000 .f32 :=
  Host.scatterAdd scatter_S100000_S1700000x1_S1700000_n_0_0_1
    (broadcastInDim S100000 ![] bcast_S_S100000 (constant S_ .f32 0x00000000#32)) (idCol d)
    (broadcastInDim S1700000 ![] bcast_S_S1700000 (constant S_ .f32 0x3F800000#32))

/-- The inverse square root of the degree where it is positive, 0 elsewhere. -/
def dinv (d : IVec S1700000 32) : FVec Ideal S100000 .f32 :=
  select (cmpf .ogt (deg d) (broadcastInDim S100000 ![] bcast_S_S100000 (constant S_ .f32 0x00000000#32)))
    (Host.rsqrt (deg d)) (broadcastInDim S100000 ![] bcast_S_S100000 (id (constant S_ .f32 0x00000000#32)))

/-- The weight of each message from a given per-node table t: t at its sender times t at its receiver. -/
def norm' (t : FVec Ideal S100000 .f32) (s d : IVec S1700000 32) : FVec Ideal S1700000 .f32 :=
  mulf (Host.gather gather_S100000_S1700000x1_S1700000_n_0_n_n_0_1_1 t (idCol (wrapIds s)))
    (Host.gather gather_S100000_S1700000x1_S1700000_n_0_n_n_0_1_1 t (idCol (wrapIds d)))

/-- Those weights as a column. -/
def normCol' (t : FVec Ideal S100000 .f32) (s d : IVec S1700000 32) : FVec Ideal S1700000x1 .f32 :=
  broadcastInDim S1700000x1 ![0] bcast_S1700000_S1700000x1_0 (norm' t s d)

/-- The weight of each message: dinv at its sender times dinv at its receiver. -/
def norm (s d : IVec S1700000 32) : FVec Ideal S1700000 .f32 := norm' (dinv d) s d

/-- The weights as a column. -/
def normCol (s d : IVec S1700000 32) : FVec Ideal S1700000x1 .f32 := normCol' (dinv d) s d

/-- One aggregation from given ids and weight column: gather the table's rows at the senders, scale each by its
    message's weight, add them up at the receivers into zeros. -/
def aggB (h : FVec Ideal S100000x64 .f32) (s d : IVec S1700000 32) (nc : FVec Ideal S1700000x1 .f32) :
    FVec Ideal S100000x64 .f32 :=
  Host.scatterAdd scatter_S100000x64_S1700000x1_S1700000x64_1_0_0_1
    (broadcastInDim S100000x64 ![] bcast_S_S100000x64 (constant S_ .f32 0x00000000#32)) (idCol d)
    (mulf (Host.gather gather_S100000x64_S1700000x1_S1700000x64_1_0_n_n_0_1_164 h (idCol (wrapIds s)))
      (broadcastInDim S1700000x64 ![0, 1] bcast_S1700000x1_S1700000x64_0_1 nc))

/-- The aggregation at an edge list's own ids and weights. -/
def agg (h : FVec Ideal S100000x64 .f32) (e : IVec S2x1600000 32) : FVec Ideal S100000x64 .f32 :=
  aggB h (srcIds e) (dstIds e) (normCol (srcIds e) (dstIds e))

/-- One layer: dense transform, aggregation, bias, maximum with zero. -/
def layer {K : Nat} (h : FVec Ideal ⟨2, ![100000, K]⟩ .f32) (w : FVec Ideal ⟨2, ![K, 64]⟩ .f32) (b : FVec Ideal S64 .f32)
    (e : IVec S2x1600000 32) : FVec Ideal S100000x64 .f32 :=
  Cert.Spec.biasRelu (agg (Cert.Spec.mm h w) e) b

/-- The network: three layers and the log-softmax head. -/
def gcn (x : FVec Ideal S100000x128 .f32) (e : IVec S2x1600000 32) (w1 : FVec Ideal S128x64 .f32) (b1 : FVec Ideal S64 .f32)
    (w2 : FVec Ideal S64x64 .f32) (b2 : FVec Ideal S64 .f32) (w3 : FVec Ideal S64x64 .f32) (b3 : FVec Ideal S64 .f32)
    (wl : FVec Ideal S64x2 .f32) (bl : FVec Ideal S2 .f32) : FVec Ideal S100000x2 .f32 :=
  Cert.Spec.head (layer (layer (layer x w1 b1 e) w2 b2 e) w3 b3 e) wl bl

end Cert.Net

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«122782_j74371653697680_1_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.RefValue.lean ====
/-
  The reference program's result is the network function of its arguments, at the ideal values.

  The reference is read stage by stage (one function per operation of the program, each over the previous stages and
  the ten arguments). Its stages fall into two kinds.

  * The sparse stages — the sender and receiver ids, the degree, its inverse square root, the message weights, and in
    each layer the gather of the node table's rows at the senders, the scaling by the weights and the scatter-add at the
    receivers — are spelt in the network with the same operations and the same dimension records, so each of them is
    the network's function by definition: the two sides are the same expression once both names are opened.
  * The dense stages are met entry by entry: a matrix product at (p, q) is the sum over k of the entries' products; a
    bias spread along the rows and added, then the maximum with the zero splat, is max(a(p, q) + b(q), 0); the head's
    affine map is the product's sum plus b(q); the log-softmax is the shifted form
        (l(p, q) − M_p) − log Σ_k exp(l(p, k) − M_p)
    with M_p the maximum of row p folded from −∞ (the reference takes the maximum of that fold with −∞ once more, which
    changes nothing because the fold already starts from −∞), and the sum folded from 0.

  The three layers and the head are then chained.
-/
import proofs.«122782_j74371653697680_1_alg».proof.Proof.RefRead
import proofs.«122782_j74371653697680_1_alg».proof.Proof.HostFns
import proofs.«122782_j74371653697680_1_alg».proof.Proof.Spec
import proofs.«122782_j74371653697680_1_alg».proof.Proof.LibMatmulAt
import proofs.«122782_j74371653697680_1_alg».proof.Proof.LibAffineAt
import proofs.«122782_j74371653697680_1_alg».proof.Proof.LibRowBias
import proofs.«122782_j74371653697680_1_alg».proof.Proof.LibColumn
import proofs.«122782_j74371653697680_1_alg».proof.Proof.LibHostColumn
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## The edge prelude

The sender and receiver ids, the degree, its inverse square root, the wrapped ids and the message weights of the
reference are the network's own functions of the edge list: the same operations with the same dimension records. -/

theorem srcIds_eq (x1 : IVec S2x1600000 32) : val_main_v3 (F := Ideal) x1 = Cert.Net.srcIds x1 := by
  unfold val_main_v3 val_main_v2 val_main_v1 val_main_v0 Cert.Net.srcIds
  rfl

theorem dstIds_eq (x1 : IVec S2x1600000 32) : val_main_v6 (F := Ideal) x1 = Cert.Net.dstIds x1 := by
  unfold val_main_v6 val_main_v5 val_main_v4 val_main_v0 Cert.Net.dstIds
  rfl

theorem deg_eq (x1 : IVec S2x1600000 32) : val_main_v10 (F := Ideal) x1 = Cert.Net.deg (val_main_v6 (F := Ideal) x1) := by
  unfold val_main_v10 val_main_v9 val_main_v8 val_main_v7 val_main_cst val_main_cst_0 Cert.Net.deg Cert.Net.idCol
  rfl

theorem dinv_eq (x1 : IVec S2x1600000 32) : val_main_v14 (F := Ideal) x1 = Cert.Net.dinv (val_main_v6 (F := Ideal) x1) := by
  unfold val_main_v14 val_main_v13 val_main_v12 val_main_v11 val_main_cst_1 val_main_call0_v1 val_main_call0_v0 val_main_cst_2 Cert.Net.dinv
  rw [deg_eq]

theorem wrapSrc_eq (x1 : IVec S2x1600000 32) : val_main_v19 (F := Ideal) x1 = Cert.Net.wrapIds (val_main_v3 (F := Ideal) x1) := by
  unfold val_main_v19 val_main_v18 val_main_v17 val_main_v16 val_main_v15 val_main_c val_main_c_3 Cert.Net.wrapIds
  rfl

theorem wrapDst_eq (x1 : IVec S2x1600000 32) : val_main_v26 (F := Ideal) x1 = Cert.Net.wrapIds (val_main_v6 (F := Ideal) x1) := by
  unfold val_main_v26 val_main_v25 val_main_v24 val_main_v23 val_main_v22 val_main_c_4 val_main_c_5 Cert.Net.wrapIds
  rfl

theorem norm_eq (x1 : IVec S2x1600000 32) :
    val_main_v29 (F := Ideal) x1 = Cert.Net.norm (Cert.Net.srcIds x1) (Cert.Net.dstIds x1) := by
  unfold val_main_v29 val_main_v28 val_main_v27 val_main_v21 val_main_v20 Cert.Net.norm Cert.Net.norm' Cert.Net.idCol
  rw [wrapSrc_eq, wrapDst_eq, dinv_eq, srcIds_eq, dstIds_eq]

/-! ## One aggregation

For any node table h, the reference's gather at the wrapped sender ids, scaling by the weight column spread over the
feature axis, and scatter-add at the receiver ids into zeros is the network's aggregation of h. Each layer recomputes
the wrapped sender column with fresh constants; each is the same function of the sender ids. -/

theorem agg_eq (h : FVec Ideal S100000x64 .f32) (x1 : IVec S2x1600000 32) :
    Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 (val_main_v6 (F := Ideal) x1))
      (mulf (Host.gather gather_S100000x64_S1700000x1_S1700000x64_1_0_n_n_0_1_164 h
          (broadcastInDim S1700000x1 ![0] bcast_S1700000_S1700000x1_0 (Cert.Net.wrapIds (val_main_v3 (F := Ideal) x1))))
        (broadcastInDim S1700000x64 ![0, 1] bcast_S1700000x1_S1700000x64_0_1
          (broadcastInDim S1700000x1 ![0] bcast_S1700000_S1700000x1_0 (val_main_v29 (F := Ideal) x1))))
      = Cert.Net.agg h x1 := by
  unfold Cert.Net.agg Cert.Net.aggB Cert.Net.normCol Cert.Net.normCol' Cert.Net.idCol
  rw [norm_eq, srcIds_eq, dstIds_eq]
  unfold Cert.Net.norm
  rfl

theorem wrap1_eq (x1 : IVec S2x1600000 32) : val_main_v35 (F := Ideal) x1 = Cert.Net.wrapIds (val_main_v3 (F := Ideal) x1) := by
  unfold val_main_v35 val_main_v34 val_main_v33 val_main_v32 val_main_v31 val_main_c_6 val_main_c_7 Cert.Net.wrapIds
  rfl

theorem wrap2_eq (x1 : IVec S2x1600000 32) : val_main_v53 (F := Ideal) x1 = Cert.Net.wrapIds (val_main_v3 (F := Ideal) x1) := by
  unfold val_main_v53 val_main_v52 val_main_v51 val_main_v50 val_main_v49 val_main_c_9 val_main_c_10 Cert.Net.wrapIds
  rfl

theorem wrap3_eq (x1 : IVec S2x1600000 32) : val_main_v71 (F := Ideal) x1 = Cert.Net.wrapIds (val_main_v3 (F := Ideal) x1) := by
  unfold val_main_v71 val_main_v70 val_main_v69 val_main_v68 val_main_v67 val_main_c_12 val_main_c_13 Cert.Net.wrapIds
  rfl

theorem agg1_eq (x0 : FVec Ideal S100000x128 .f32) (x1 : IVec S2x1600000 32) (x2 : FVec Ideal S128x64 .f32) :
    val_main_v43 (F := Ideal) x0 x1 x2 = Cert.Net.agg (val_main_v30 (F := Ideal) x0 x2) x1 := by
  unfold val_main_v43 val_main_v42 val_main_v41 val_main_cst_8 val_main_v40 val_main_v39 val_main_v38 val_main_v37 val_main_v36
  rw [wrap1_eq]
  exact agg_eq _ x1

/-! ## The dense stages, entry by entry -/

/-- The host's matrix product with the plain dimension numbers is the entry-by-entry product. -/
theorem mm_eq {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) :
    Host.dotGeneral d none A B = Cert.Spec.mm A B := by
  funext j
  exact Cert.KernelIdeal.Hand.dotGeneral_plain_apply' d hd none A B j

/-- A bias vector spread along every row and added, then the maximum with the zero splat. -/
theorem biasRelu_eq (a : FVec Ideal S100000x64 .f32) (b : FVec Ideal S64 .f32) :
    maximumf (addf a (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Cert.Spec.biasRelu a b := by
  funext j
  obtain ⟨p, q, rfl⟩ : ∃ (p : Fin 100000) (q : Fin 64), j = ix2 p q := ⟨j 0, j 1, eq_ix2 j⟩
  have hb := Cert.LibRowBias.row_broadcastInDim_apply b bcast_S64_S1x64_1 bcast_S1x64_S100000x64_0_1 p q
  have hz : broadcastInDim S100000x64 ![] bcast_S_S100000x64 (constant (F := Ideal) S_ .f32 0x00000000#32) (ix2 p q)
      = Ideal.ofBits .f32 0x00000000#32 :=
    broadcastInDim_apply _ bcast_S_S100000x64 _ (ix2 p q) (fun a => a.elim0) (fun a => a.elim0)
  show max (a (ix2 p q) + _) _ = max (a (ix2 p q) + b (ix1 q)) (Ideal.ofBits .f32 0x00000000#32)
  rw [hb, hz]

theorem agg2_eq (x0 : FVec Ideal S100000x128 .f32) (x1 : IVec S2x1600000 32) (x2 : FVec Ideal S128x64 .f32) (x3 : FVec Ideal S64 .f32)
    (x4 : FVec Ideal S64x64 .f32) :
    val_main_v61 (F := Ideal) x0 x1 x2 x3 x4 = Cert.Net.agg (val_main_v48 (F := Ideal) x0 x1 x2 x3 x4) x1 := by
  unfold val_main_v61 val_main_v60 val_main_v59 val_main_cst_11 val_main_v58 val_main_v57 val_main_v56 val_main_v55 val_main_v54
  rw [wrap2_eq]
  exact agg_eq _ x1

theorem agg3_eq (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x64 .f32) :
    val_main_v79 (F := Ideal) x0 x1 x2 x3 x4 x5 x6 = Cert.Net.agg (val_main_v66 (F := Ideal) x0 x1 x2 x3 x4 x5 x6) x1 := by
  unfold val_main_v79 val_main_v78 val_main_v77 val_main_cst_14 val_main_v76 val_main_v75 val_main_v74 val_main_v73 val_main_v72
  rw [wrap3_eq]
  exact agg_eq _ x1

/-! ## The three layers -/

theorem layer1_eq (x0 : FVec Ideal S100000x128 .f32) (x1 : IVec S2x1600000 32) (x2 : FVec Ideal S128x64 .f32) (x3 : FVec Ideal S64 .f32) :
    val_main_v47 (F := Ideal) x0 x1 x2 x3 = Cert.Net.layer x0 x2 x3 x1 := by
  unfold val_main_v47 val_main_v46 val_main_v45 val_main_v44 val_main_call1_v0 val_main_call1_cst Cert.Net.layer
  rw [agg1_eq]
  unfold val_main_v30
  rw [mm_eq dot_S100000x128_S128x64_S100000x64_1_0_0_1_n_n rfl]
  exact biasRelu_eq _ x3

theorem layer2_eq (x0 : FVec Ideal S100000x128 .f32) (x1 : IVec S2x1600000 32) (x2 : FVec Ideal S128x64 .f32) (x3 : FVec Ideal S64 .f32)
    (x4 : FVec Ideal S64x64 .f32) (x5 : FVec Ideal S64 .f32) :
    val_main_v65 (F := Ideal) x0 x1 x2 x3 x4 x5 = Cert.Net.layer (val_main_v47 (F := Ideal) x0 x1 x2 x3) x4 x5 x1 := by
  unfold val_main_v65 val_main_v64 val_main_v63 val_main_v62 val_main_call2_v0 val_main_call2_cst Cert.Net.layer
  rw [agg2_eq]
  unfold val_main_v48
  rw [mm_eq dot_S100000x64_S64x64_S100000x64_1_0_0_1_n_n rfl]
  exact biasRelu_eq _ x5

theorem layer3_eq (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32) :
    val_main_v83 (F := Ideal) x0 x1 x2 x3 x4 x5 x6 x7 = Cert.Net.layer (val_main_v65 (F := Ideal) x0 x1 x2 x3 x4 x5) x6 x7 x1 := by
  unfold val_main_v83 val_main_v82 val_main_v81 val_main_v80 val_main_call3_v0 val_main_call3_cst Cert.Net.layer
  rw [agg3_eq]
  unfold val_main_v66
  rw [mm_eq dot_S100000x64_S64x64_S100000x64_1_0_0_1_n_n rfl]
  exact biasRelu_eq _ x7

/-! ## The head

The affine map at an entry, then the log-softmax. The reference's log-softmax on a variable logits table l is named
here in three steps (row maximum, shifted logits, result): the stages are these steps by definition, and each step is
read at an entry once. -/

/-- The head's affine map: the product's sum plus the bias entry. -/
theorem logits_eq (h : FVec Ideal S100000x64 .f32) (w : FVec Ideal S64x2 .f32) (b : FVec Ideal S2 .f32) :
    addf (Host.dotGeneral dot_S100000x64_S64x2_S100000x2_1_0_0_1_n_n none h w)
      (broadcastInDim S100000x2 ![0, 1] bcast_S1x2_S100000x2_0_1 (broadcastInDim S1x2 ![1] bcast_S2_S1x2_1 b))
      = Cert.Spec.logits h w b := by
  funext j
  obtain ⟨p, q, rfl⟩ : ∃ (p : Fin 100000) (q : Fin 2), j = ix2 p q := ⟨j 0, j 1, eq_ix2 j⟩
  have hb := Cert.LibRowBias.row_broadcastInDim_apply b bcast_S2_S1x2_1 bcast_S1x2_S100000x2_0_1 p q
  have hm := Cert.KernelIdeal.Hand.dotGeneral_plain_apply' dot_S100000x64_S64x2_S100000x2_1_0_0_1_n_n rfl none h w (ix2 p q)
  rw [addf_apply, hb, hm]
  rfl

/-- The reference's row maximum: the maximum of the −∞ splat with the maximum-reduce of the rows from −∞. -/
def lsmMax (l : FVec Ideal S100000x2 .f32) : FVec Ideal S100000 .f32 :=
  maximumf (broadcastInDim S100000 ![] bcast_S_S100000 (constant (F := Ideal) S_ .f32 0xFF800000#32))
    (Host.reduce FloatOps.maximumf l (constant (F := Ideal) S_ .f32 0xFF800000#32) reducesTo_S100000x2_S100000_d1 h_S_)

/-- The logits minus their row's maximum, the maximum laid out as a column and spread over the two classes. -/
def lsmShift (l : FVec Ideal S100000x2 .f32) : FVec Ideal S100000x2 .f32 :=
  subf l (broadcastInDim S100000x2 ![0, 1] bcast_S100000x1_S100000x2_0_1
    (broadcastInDim S100000x1 ![0] bcast_S100000_S100000x1_0 (lsmMax l)))

/-- The shifted logits minus the logarithm of the row sums of their exponentials. -/
def lsm (l : FVec Ideal S100000x2 .f32) : FVec Ideal S100000x2 .f32 :=
  subf (lsmShift l) (broadcastInDim S100000x2 ![0, 1] bcast_S100000x1_S100000x2_0_1
    (Host.log (broadcastInDim S100000x1 ![0] bcast_S100000_S100000x1_0
      (Host.reduceAdd (Host.exp (lsmShift l)) (constant (F := Ideal) S_ .f32 0x00000000#32) reducesTo_S100000x2_S100000_d1 h_S_))))

/-- Row p's index with class k put back on the reduced axis is (p, k). -/
theorem lift_row (hr : S100000x2.Reduces [1] S100000) (p : Fin 100000) (k : Fin (S100000x2.size 1)) :
    hr.lift (ix1 p) k = ix2 p (⟨k.val, k.isLt⟩ : Fin 2) := by
  funext c; apply Fin.ext
  fin_cases c <;> rfl

/-- The row maximum at row p is the fold of max from −∞ over the row: the extra maximum with −∞ is absorbed because
    the fold already starts from −∞. -/
theorem lsmMax_apply (l : FVec Ideal S100000x2 .f32) (p : Fin 100000) : lsmMax l (ix1 p) = Cert.Spec.rowMax l p := by
  have hr : S100000x2.Reduces [1] S100000 := by decide
  have hred := Host.reduce_eq_fold_single FloatOps.maximumf l (constant (F := Ideal) S_ .f32 0xFF800000#32)
    reducesTo_S100000x2_S100000_d1 hr h_S_ (ix1 p)
  have hf : (l ∘ hr.lift (ix1 p)) = fun k : Fin 2 => l (ix2 p k) := funext fun k => congrArg l (lift_row hr p k)
  have hz : broadcastInDim S100000 ![] bcast_S_S100000 (constant (F := Ideal) S_ .f32 0xFF800000#32) (ix1 p)
      = Ideal.ofBits .f32 0xFF800000#32 :=
    broadcastInDim_apply _ bcast_S_S100000 _ (ix1 p) (fun a => a.elim0) (fun a => a.elim0)
  unfold lsmMax
  rw [maximumf_apply, hz, hred, hf]
  exact max_eq_right ((Finset.le_fold_max _).mpr (Or.inl le_rfl))

/-- The host's exponential and logarithm act entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The shifted logits at (p, q). -/
theorem lsmShift_apply (l : FVec Ideal S100000x2 .f32) (p : Fin 100000) (q : Fin 2) :
    lsmShift l (ix2 p q) = l (ix2 p q) - Cert.Spec.rowMax l p := by
  unfold lsmShift
  rw [subf_apply, Cert.LibHostColumn.broadcastInDim_a1_ab_apply _ bcast_S100000x1_S100000x2_0_1 p q,
    Cert.LibColumn.broadcastInDim_a_a1_apply _ bcast_S100000_S100000x1_0 p (0 : Fin 1), lsmMax_apply]

/-- The sum-reduce from 0 of the exponentials of a table s, at row p, is the sum over the two classes. -/
theorem expSum_apply (s : FVec Ideal S100000x2 .f32) (p : Fin 100000) :
    Host.reduceAdd (Host.exp s) (constant (F := Ideal) S_ .f32 0x00000000#32) reducesTo_S100000x2_S100000_d1 h_S_ (ix1 p)
      = ∑ k : Fin 2, Ideal.exp (s (ix2 p k)) := by
  have hr : S100000x2.Reduces [1] S100000 := by decide
  simp only [Host.reduceAdd, Ideal.hostReduceAdd_def]
  rw [Ideal.hostReduceAdd_single reducesTo_S100000x2_S100000_d1 hr, constant_apply, Ideal.ofBits_zero_f32, zero_add]
  refine Finset.sum_congr rfl fun k _ => ?_
  rw [hostExp_apply, lift_row hr p k]
  rfl

/-- The reference's log-softmax is the shifted form, entry by entry. -/
theorem lsm_eq (l : FVec Ideal S100000x2 .f32) : lsm l = Cert.Spec.logSoftmax l := by
  funext j
  obtain ⟨p, q, rfl⟩ : ∃ (p : Fin 100000) (q : Fin 2), j = ix2 p q := ⟨j 0, j 1, eq_ix2 j⟩
  unfold lsm
  rw [subf_apply, Cert.LibHostColumn.broadcastInDim_a1_ab_apply _ bcast_S100000x1_S100000x2_0_1 p q, hostLog_apply,
    Cert.LibColumn.broadcastInDim_a_a1_apply _ bcast_S100000_S100000x1_0 p (0 : Fin 1), expSum_apply]
  simp only [lsmShift_apply]
  rfl

/-- The reference's logits are the affine head of the third layer's output. -/
theorem logits87_eq (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x2 .f32) (x9 : FVec Ideal S2 .f32) :
    val_main_v87 (F := Ideal) x0 x1 x2 x3 x4 x5 x6 x7 x8 x9
      = Cert.Spec.logits (val_main_v83 (F := Ideal) x0 x1 x2 x3 x4 x5 x6 x7) x8 x9 := by
  unfold val_main_v87 val_main_v86 val_main_v85 val_main_v84
  exact logits_eq _ x8 x9

/-- The reference's log-softmax stages are the three named steps applied to the logits. -/
theorem lsm88_eq (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x2 .f32) (x9 : FVec Ideal S2 .f32) :
    val_main_v88 (F := Ideal) x0 x1 x2 x3 x4 x5 x6 x7 x8 x9 = lsm (val_main_v87 (F := Ideal) x0 x1 x2 x3 x4 x5 x6 x7 x8 x9) := by
  unfold val_main_v88 val_main_call4_v10 val_main_call4_v9 val_main_call4_v8 val_main_call4_v7 val_main_call4_cst_1
    val_main_call4_v6 val_main_call4_v5 val_main_call4_v4 val_main_call4_v3 val_main_call4_v2 val_main_call4_v1
    val_main_call4_cst_0 val_main_call4_v0 val_main_call4_cst lsm lsmShift lsmMax
  rfl

/-- The head: the reference's result is the log-softmax of the affine map of the third layer's output. -/
theorem head_eq (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x2 .f32) (x9 : FVec Ideal S2 .f32) :
    val_main_v88 (F := Ideal) x0 x1 x2 x3 x4 x5 x6 x7 x8 x9
      = Cert.Spec.head (val_main_v83 (F := Ideal) x0 x1 x2 x3 x4 x5 x6 x7) x8 x9 := by
  rw [lsm88_eq, lsm_eq, logits87_eq]
  rfl

/-! ## The network -/

/-- The reference program's result is the network function of its ten arguments. -/
theorem ref_value (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x2 .f32) (x9 : FVec Ideal S2 .f32) :
    Cert.ReferenceIdeal.ReadP.val_main_v88 (F := Ideal) x0 x1 x2 x3 x4 x5 x6 x7 x8 x9 = Cert.Net.gcn x0 x1 x2 x3 x4 x5 x6 x7 x8 x9 := by
  rw [head_eq, layer3_eq, layer2_eq, layer1_eq]
  rfl

end Cert.ReferenceIdeal.RefValue

end
-- ==== Proof.KRun.lean ====
/-
  The idealized kernel's run with its result named. Every weakly fair execution of the program from any memory with zero
  counters terminates, nothing faulting; in the final state the result array holds what the last boundary's contents give
  it — the fold of the host stretches and of each region's write-backs from the launch memory — and the ten argument
  arrays are as launched. The run is the library's launch theorem for a program of several regions over the program's
  segments; the final state is read at every unscoped buffer, the result's among them.
-/
import proofs.«122782_j74371653697680_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v77) = W14 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v77 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.RunV

end
-- ==== Proof.KKeep.lean ====
/-
  Buffers a segment does not write keep their contents across it. The program's boundary contents are a fold from the
  launch memory: a host stretch changes only the buffers its operations write, a region only its windows' arrays. So an
  argument array, which nothing writes, holds its launch contents at every boundary; the sender ids, receiver ids and
  weight column, written once before the first region, are the same at every later boundary; and the third layer's
  output survives the reshape that precedes the head.
-/
import proofs.«122782_j74371653697680_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves a buffer none of its operations writes as it was: the stretch's operations are listed, each
    one's written buffer compared with the buffer in hand. -/
local macro "host_keep" : tactic => `(tactic|
  exact StableHlo.after_of_forall_not_mem _ _ (List.forall_iff_forall_mem.mp (by
    simp only [hostOps0, hostOps0_1, hostOps0_2, hostOps1, hostOps3, hostOps5, hostOps6, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## The arguments read before the fourth region: down to the launch memory -/

theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keep
    _ = W1 m ρ c (Proc.devRef .tc main_arg0) := by host_keep
    _ = W0 m ρ c (Proc.devRef .tc main_arg0) := by host_keep
    _ = m ((c : Thread nD τ).loc main_arg0) := rfl

theorem arg1_at0 (c : Dev nD) : W0 m ρ c (Proc.devRef .tc main_arg1) = m ((c : Thread nD τ).loc main_arg1) := rfl

theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by host_keep
    _ = W1 m ρ c (Proc.devRef .tc main_arg2) := by host_keep
    _ = W0 m ρ c (Proc.devRef .tc main_arg2) := by host_keep
    _ = m ((c : Thread nD τ).loc main_arg2) := rfl

theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keep
    _ = W1 m ρ c (Proc.devRef .tc main_arg3) := by host_keep
    _ = W0 m ρ c (Proc.devRef .tc main_arg3) := by host_keep
    _ = m ((c : Thread nD τ).loc main_arg3) := rfl

theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keep
    _ = W3 m ρ c (Proc.devRef .tc main_arg4) := W4_of_ne m ρ c main_arg4 (by decide)
    _ = W2 m ρ c (Proc.devRef .tc main_arg4) := by host_keep
    _ = W1 m ρ c (Proc.devRef .tc main_arg4) := by host_keep
    _ = W0 m ρ c (Proc.devRef .tc main_arg4) := by host_keep
    _ = m ((c : Thread nD τ).loc main_arg4) := rfl

theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := by host_keep
    _ = W0 m ρ c (Proc.devRef .tc main_arg5) := by host_keep
    _ = m ((c : Thread nD τ).loc main_arg5) := rfl

/-! ## The arguments read from the fifth region on: up to the last boundary, where each is read back to the launch
    memory (a region leaves an array it only reads through an input window as it found it) -/

theorem arg6_at9 (c : Dev nD) : W9 m ρ c (Proc.devRef .tc main_arg6) = m ((c : Thread nD τ).loc main_arg6) :=
  calc W9 m ρ c (Proc.devRef .tc main_arg6)
    _ = W10 m ρ c (Proc.devRef .tc main_arg6) :=
        ((W10_arr m ρ c 1).trans (((dat4 (V9 m ρ) c).arrAt_in 1 rfl _).trans (A_eq4 (V9 m ρ) c 1))).symm
    _ = W11 m ρ c (Proc.devRef .tc main_arg6) := Eq.symm (by host_keep)
    _ = W12 m ρ c (Proc.devRef .tc main_arg6) := (W12_of_ne m ρ c main_arg6 (by decide)).symm
    _ = W13 m ρ c (Proc.devRef .tc main_arg6) := Eq.symm (by host_keep)
    _ = W14 m ρ c (Proc.devRef .tc main_arg6) := (W14_of_ne m ρ c main_arg6 (by decide)).symm
    _ = m ((c : Thread nD τ).loc main_arg6) := W14_main_arg6 m ρ c

theorem arg7_at10 (c : Dev nD) : W10 m ρ c (Proc.devRef .tc main_arg7) = m ((c : Thread nD τ).loc main_arg7) :=
  calc W10 m ρ c (Proc.devRef .tc main_arg7)
    _ = W11 m ρ c (Proc.devRef .tc main_arg7) := Eq.symm (by host_keep)
    _ = W12 m ρ c (Proc.devRef .tc main_arg7) := (W12_of_ne m ρ c main_arg7 (by decide)).symm
    _ = W13 m ρ c (Proc.devRef .tc main_arg7) := Eq.symm (by host_keep)
    _ = W14 m ρ c (Proc.devRef .tc main_arg7) := (W14_of_ne m ρ c main_arg7 (by decide)).symm
    _ = m ((c : Thread nD τ).loc main_arg7) := W14_main_arg7 m ρ c

theorem arg9_at12 (c : Dev nD) : W12 m ρ c (Proc.devRef .tc main_arg9) = m ((c : Thread nD τ).loc main_arg9) :=
  calc W12 m ρ c (Proc.devRef .tc main_arg9)
    _ = W13 m ρ c (Proc.devRef .tc main_arg9) := Eq.symm (by host_keep)
    _ = W14 m ρ c (Proc.devRef .tc main_arg9) := (W14_of_ne m ρ c main_arg9 (by decide)).symm
    _ = m ((c : Thread nD τ).loc main_arg9) := W14_main_arg9 m ρ c

theorem arg8_at13 (c : Dev nD) : W13 m ρ c (Proc.devRef .tc main_arg8) = m ((c : Thread nD τ).loc main_arg8) :=
  calc W13 m ρ c (Proc.devRef .tc main_arg8)
    _ = W14 m ρ c (Proc.devRef .tc main_arg8) :=
        ((W14_arr m ρ c 1).trans (((dat6 (V13 m ρ) c).arrAt_in 1 rfl _).trans (A_eq6 (V13 m ρ) c 1))).symm
    _ = m ((c : Thread nD τ).loc main_arg8) := W14_main_arg8 m ρ c

/-! ## The ids and the weight column, written before the first region, at the three aggregations -/

theorem v3_at4 (c : Dev nD) : W4 m ρ c (Proc.devRef .tc main_v3) = W3 m ρ c (Proc.devRef .tc main_v3) :=
  W4_of_ne m ρ c main_v3 (by decide)
theorem v6_at4 (c : Dev nD) : W4 m ρ c (Proc.devRef .tc main_v6) = W3 m ρ c (Proc.devRef .tc main_v6) :=
  W4_of_ne m ρ c main_v6 (by decide)
theorem v30_at4 (c : Dev nD) : W4 m ρ c (Proc.devRef .tc main_v30) = W3 m ρ c (Proc.devRef .tc main_v30) :=
  W4_of_ne m ρ c main_v30 (by decide)

theorem v3_at7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keep
    _ = W3 m ρ c (Proc.devRef .tc main_v3) := v3_at4 m ρ c
theorem v6_at7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keep
    _ = W3 m ρ c (Proc.devRef .tc main_v6) := v6_at4 m ρ c
theorem v30_at7 (c : Dev nD) : W7 m ρ c (Proc.devRef .tc main_v30) = W3 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by host_keep
    _ = W3 m ρ c (Proc.devRef .tc main_v30) := v30_at4 m ρ c

theorem v3_at10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keep
    _ = W3 m ρ c (Proc.devRef .tc main_v3) := v3_at7 m ρ c
theorem v6_at10 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keep
    _ = W3 m ρ c (Proc.devRef .tc main_v6) := v6_at7 m ρ c
theorem v30_at10 (c : Dev nD) : W10 m ρ c (Proc.devRef .tc main_v30) = W3 m ρ c (Proc.devRef .tc main_v30) :=
  calc W10 m ρ c (Proc.devRef .tc main_v30)
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := by host_keep
    _ = W3 m ρ c (Proc.devRef .tc main_v30) := v30_at7 m ρ c

/-- The ids, written in the first stretch, pass the next two stretches unchanged. -/
theorem v3_at3 (c : Dev nD) : W3 m ρ c (Proc.devRef .tc main_v3) = W1 m ρ c (Proc.devRef .tc main_v3) :=
  calc W3 m ρ c (Proc.devRef .tc main_v3)
    _ = W2 m ρ c (Proc.devRef .tc main_v3) := by host_keep
    _ = W1 m ρ c (Proc.devRef .tc main_v3) := by host_keep
theorem v6_at3 (c : Dev nD) : W3 m ρ c (Proc.devRef .tc main_v6) = W1 m ρ c (Proc.devRef .tc main_v6) :=
  calc W3 m ρ c (Proc.devRef .tc main_v6)
    _ = W2 m ρ c (Proc.devRef .tc main_v6) := by host_keep
    _ = W1 m ρ c (Proc.devRef .tc main_v6) := by host_keep
theorem v3_at2 (c : Dev nD) : W2 m ρ c (Proc.devRef .tc main_v3) = W1 m ρ c (Proc.devRef .tc main_v3) := by host_keep
theorem v6_at2 (c : Dev nD) : W2 m ρ c (Proc.devRef .tc main_v6) = W1 m ρ c (Proc.devRef .tc main_v6) := by host_keep

/-- The third layer's output passes the last reshape unchanged. -/
theorem v75_at13 (c : Dev nD) : W13 m ρ c (Proc.devRef .tc main_v75) = W12 m ρ c (Proc.devRef .tc main_v75) := by host_keep

end Cert.KernelIdeal.Keep

end
-- ==== Proof.KHost.lean ====
/-
  What the host stretches between the regions write, read back as functions of the buffers they read.

  Before the first region the program builds, from the edge list alone, the sender ids, the receiver ids (each a row
  of the edge list followed by every node once), the degree of every node, its inverse square root where positive, and
  the weight column of the messages. After each dense transform it aggregates: the transformed rows gathered at the
  senders, scaled by the weight column, added up at the receivers; and it recasts the layer's bias vector as a one-row
  matrix for the next region. Each stretch is a list of array operations; composed, they are the whole-array functions of
  `Cert.Net`, whose spelling is the reference program's (the two programs print the same operations with the same
  dimension numbers, so the composed terms agree by unfolding). A stretch is first read from ANY contents of the buffers
  it starts from, so that nothing before it is opened, and then placed at its boundary of the program.
-/
import proofs.«122782_j74371653697680_1_alg».proof.Proof.Gen.KernelIdeal.Frame
import proofs.«122782_j74371653697680_1_alg».proof.Proof.HostFns
import proofs.«122782_j74371653697680_1_alg».proof.Proof.KKeep
import proofs.«122782_j74371653697680_1_alg».proof.Proof.LibTypedRef
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo

/-! ## Each stretch from any starting contents -/

section Stretch

variable (Wp : Valuation τ sig (Elt Ideal))

/-- The sender ids are row 0 of the edge list followed by every node once. -/
theorem v3_of : StableHlo.after hostOps0 Wp (Proc.devRef .tc main_v3) = Cert.Net.srcIds (Wp (Proc.devRef .tc main_arg1)) := by
  after_results
  rfl

/-- The receiver ids are row 1 of the edge list followed by every node once. -/
theorem v6_of : StableHlo.after hostOps0 Wp (Proc.devRef .tc main_v6) = Cert.Net.dstIds (Wp (Proc.devRef .tc main_arg1)) := by
  after_results
  rfl

set_option maxHeartbeats 1000000 in
/-- Where the degree is positive. -/
theorem v12_of : StableHlo.after hostOps0 Wp (Proc.devRef .tc main_v12)
    = cmpf .ogt (Cert.Net.deg (Cert.Net.dstIds (Wp (Proc.devRef .tc main_arg1))))
        (broadcastInDim S100000 ![] bcast_S_S100000 (constant (F := Ideal) S_ .f32 0x00000000#32)) := by
  after_results
  rfl

set_option maxHeartbeats 1000000 in
/-- The inverse square root of the degree. -/
theorem v13_of : StableHlo.after hostOps0 Wp (Proc.devRef .tc main_v13)
    = Host.rsqrt (Cert.Net.deg (Cert.Net.dstIds (Wp (Proc.devRef .tc main_arg1)))) := by
  after_results
  rfl

/-- The zero the selection falls back to. -/
theorem cst2_of : StableHlo.after hostOps0 Wp (Proc.devRef .tc main_cst_2)
    = (constant (F := Ideal) S_ .f32 0x00000000#32 : FVec Ideal S_ .f32) := by
  after_results

set_option maxHeartbeats 1000000 in
/-- The selection: the second table where the mask holds, the splat of the scalar elsewhere. -/
theorem v14_of : StableHlo.after hostOps0_1 Wp (Proc.devRef .tc main_v14)
    = select (Wp (Proc.devRef .tc main_v12)) (Wp (Proc.devRef .tc main_v13))
        (broadcastInDim S100000 ![] bcast_S_S100000 (id (Wp (Proc.devRef .tc main_cst_2)))) := by
  after_results
  simp only [Cert.LibTypedRef.ofBuf_toBuf, Cert.LibTypedRef.toBuf_ofBuf]
  rfl

set_option maxHeartbeats 2000000 in
/-- The weight column from a per-node table and the two id vectors. -/
theorem v30_of : StableHlo.after hostOps0_2 Wp (Proc.devRef .tc main_v30)
    = Cert.Net.normCol' (Wp (Proc.devRef .tc main_v14)) (Wp (Proc.devRef .tc main_v3)) (Wp (Proc.devRef .tc main_v6)) := by
  after_results_simp
  rfl

set_option maxHeartbeats 1000000 in
/-- The first aggregation. -/
theorem v43_of : StableHlo.after hostOps1 Wp (Proc.devRef .tc main_v43)
    = Cert.Net.aggB (Wp (Proc.devRef .tc main_v31)) (Wp (Proc.devRef .tc main_v3)) (Wp (Proc.devRef .tc main_v6)) (Wp (Proc.devRef .tc main_v30)) := by
  after_results
  rfl

/-- The first bias vector as a one-row matrix. -/
theorem v44_of : StableHlo.after hostOps1 Wp (Proc.devRef .tc main_v44)
    = shapeCast S1x64 (Wp (Proc.devRef .tc main_arg3)) shapeCasts_S64_S1x64 := by
  after_results
  rfl

set_option maxHeartbeats 1000000 in
/-- The second aggregation. -/
theorem v58_of : StableHlo.after hostOps3 Wp (Proc.devRef .tc main_v58)
    = Cert.Net.aggB (Wp (Proc.devRef .tc main_v46)) (Wp (Proc.devRef .tc main_v3)) (Wp (Proc.devRef .tc main_v6)) (Wp (Proc.devRef .tc main_v30)) := by
  after_results
  rfl

/-- The second bias vector as a one-row matrix. -/
theorem v59_of : StableHlo.after hostOps3 Wp (Proc.devRef .tc main_v59)
    = shapeCast S1x64 (Wp (Proc.devRef .tc main_arg5)) shapeCasts_S64_S1x64 := by
  after_results
  rfl

set_option maxHeartbeats 1000000 in
/-- The third aggregation. -/
theorem v73_of : StableHlo.after hostOps5 Wp (Proc.devRef .tc main_v73)
    = Cert.Net.aggB (Wp (Proc.devRef .tc main_v61)) (Wp (Proc.devRef .tc main_v3)) (Wp (Proc.devRef .tc main_v6)) (Wp (Proc.devRef .tc main_v30)) := by
  after_results
  rfl

/-- The third bias vector as a one-row matrix. -/
theorem v74_of : StableHlo.after hostOps5 Wp (Proc.devRef .tc main_v74)
    = shapeCast S1x64 (Wp (Proc.devRef .tc main_arg7)) shapeCasts_S64_S1x64 := by
  after_results
  rfl

/-- The head's bias vector as a one-row matrix. -/
theorem v76_of : StableHlo.after hostOps6 Wp (Proc.devRef .tc main_v76)
    = shapeCast S1x2 (Wp (Proc.devRef .tc main_arg9)) shapeCasts_S2_S1x2 := by
  after_results
  rfl

end Stretch

/-! ## The ids and the weight column at the first region's entry, from the launch memory -/

variable (m : (ℓ : Loc nD τ sig) → Buf (Elt Ideal) ℓ) (ρ : Dev nD → PrngReg)

/-- The sender ids at the first region's entry. -/
theorem src_at3 (c : Dev nD) :
    W3 m ρ c (Proc.devRef .tc main_v3) = Cert.Net.srcIds (m ((c : Thread nD τ).loc main_arg1)) :=
  (Cert.KernelIdeal.Keep.v3_at3 m ρ c).trans (v3_of (W0 m ρ c))

/-- The receiver ids at the first region's entry. -/
theorem dst_at3 (c : Dev nD) :
    W3 m ρ c (Proc.devRef .tc main_v6) = Cert.Net.dstIds (m ((c : Thread nD τ).loc main_arg1)) :=
  (Cert.KernelIdeal.Keep.v6_at3 m ρ c).trans (v6_of (W0 m ρ c))

/-- The inverse square root of the degree where positive, zero elsewhere, after the selection's stretch. -/
theorem dinv_at2 (c : Dev nD) :
    W2 m ρ c (Proc.devRef .tc main_v14) = Cert.Net.dinv (Cert.Net.dstIds (m ((c : Thread nD τ).loc main_arg1))) := by
  refine (v14_of (W1 m ρ c)).trans ?_
  rw [show W1 m ρ c (Proc.devRef .tc main_v12) = _ from v12_of (W0 m ρ c),
    show W1 m ρ c (Proc.devRef .tc main_v13) = _ from v13_of (W0 m ρ c),
    show W1 m ρ c (Proc.devRef .tc main_cst_2) = _ from cst2_of (W0 m ρ c)]
  rfl

/-- The weight column at the first region's entry. -/
theorem ncol_at3 (c : Dev nD) :
    W3 m ρ c (Proc.devRef .tc main_v30)
      = Cert.Net.normCol (Cert.Net.srcIds (m ((c : Thread nD τ).loc main_arg1))) (Cert.Net.dstIds (m ((c : Thread nD τ).loc main_arg1))) := by
  refine (v30_of (W2 m ρ c)).trans ?_
  rw [dinv_at2, Cert.KernelIdeal.Keep.v3_at2, Cert.KernelIdeal.Keep.v6_at2,
    show W1 m ρ c (Proc.devRef .tc main_v3) = _ from v3_of (W0 m ρ c),
    show W1 m ρ c (Proc.devRef .tc main_v6) = _ from v6_of (W0 m ρ c)]
  rfl

end Cert.KernelIdeal.HostV

end
-- ==== Proof.KDense.lean ====
/-
  What six of the seven regions of the graph-convolution network leave in their output arrays, as whole-array functions
  of the arrays each region finds, at the ideal values (floats as exact extended reals).

  All six regions tile a 100000-row matrix into ten blocks of 10000 consecutive rows and visit the blocks one per grid
  point: point t reads block t of its row-tiled input (rows 10000·t … 10000·t + 9999, every column), reads its second
  operand whole at every point, computes one block of the result from those two, and writes it back as block t of the
  output array. No block is visited twice and the ten blocks cover the output.

  * Regions 0, 2, 4 multiply the block of rows by the whole weight matrix into a zero accumulator. Row p of the block is
    row 10000·t + p of the array, and the product's entry at (row, q) depends only on that row of the left array and on
    column q of the weights: Σ_k x(row, k) · w(k, q). So each written block is the corresponding block of the whole
    matrix product `Cert.Spec.mm`, and the ten blocks together are the product.
  * Regions 1, 3, 5 add a one-row bias matrix along every row of the block and take the maximum with zero. The entry at
    (row, q) depends only on the input's entry at the same place and on the bias entry (0, q):
    max(a(row, q) + r(0, q), 0). So each written block is the corresponding block of `Cert.Spec.biasReluRow`.

  Each region follows the same four steps: the body's result at one entry of its block, over arbitrary block contents; the
  relations between the windows' block indices, decided once over the ten grid points; the block a point writes back is
  the block of the whole-array function (an entry's place in the array is block index × block size + its place in the
  block, axis by axis); the blocks cover the array, so the array ends holding the function. Everything is stated at any
  contents `V` of the buffers on entry to the region.
-/
import proofs.«122782_j74371653697680_1_alg».proof.Proof.Gen.KernelIdeal.Frame
import proofs.«122782_j74371653697680_1_alg».proof.Proof.Spec
import proofs.«122782_j74371653697680_1_alg».proof.Proof.LibMatmulAt
import proofs.«122782_j74371653697680_1_alg».proof.Proof.LibAffineAt
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offsets of an access to a whole buffer, spelt as a vector, are the constant zero function. -/
theorem zeroOffsets : (![0, 0] : Fin 2 → Nat) = fun _ => 0 := funext fun a => by fin_cases a <;> rfl

/-! ## Region 0: the block of rows times the whole weight matrix -/

/-- The body's result at entry (p, q) of its block: the exact sum over the 128 contracted coordinates of
    x(p, k) · w(k, q). The two changes of float format are the identity at the ideal values and the
    accumulator starts at zero. -/
theorem matmulPayload0_apply (x0 : Vec Ideal S10000x128 .f32) (x1 : Vec Ideal S128x64 .f32) (j : S10000x64.Idx) :
    k0_pay1 x0 x1 j = ∑ k : Fin 128, x0 (ix2 (j 0) k) * x1 (ix2 k (j 1)) := by
  unfold k0_pay1
  exact Cert.KernelIdeal.Hand.matmul_zero_plain_apply _ rfl none _ _ j

/-- Which blocks a grid point works on, decided once over the ten points: the left operand's block of rows moves with the
    output's, always over all columns (column block 0); the weight matrix is always its one whole block; the output's row
    block is one of 0 … 9 and its column block is 0. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks of the output is some grid point's. -/
theorem blockOnto0 : ∀ q0 : Fin 10, ∃ t : Fin cfg0.N, win0_2.index t = ![q0.val, 0] :=
  (by decide +kernel : ∀ q0 : Fin 10, ∃ t : Fin grid0.N, win0_2.index t = ![q0.val, 0])

/-- What grid point t writes back is block t of the matrix product of the two whole arrays. Entry (p, q) of the block
    sits at row 10000 · (row block) + p and column q of the array; it depends on that one row of the left array — read
    through the left operand's block, which starts at the same row — and on column q of the weight matrix, whose block
    is the whole matrix. So the block's sum over k and the array's sum over k agree term by term. -/
theorem flushed0_eq (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x64) zeroOffsets]
  obtain ⟨e0, e1, e2, e3, e4, e5⟩ := blockIndex0 t
  funext j
  refine (matmulPayload0_apply (iblk0 V c 0 t) (iblk0 V c 1 t) j).trans ?_
  have key : ∀ (A : FVec Ideal S100000x128 .f32) (B : FVec Ideal S128x64 .f32),
      ∑ k : Fin 128, A (((cfg0.win 0).blk t).view.emb (ix2 (j 0) k)) * B (((cfg0.win 1).blk t).view.emb (ix2 k (j 1)))
        = ∑ k : Fin 128, A (ix2 ((((cfg0.win 2).blk t).view.emb j) 0) k) * B (ix2 k ((((cfg0.win 2).blk t).view.emb j) 1)) := by
    intro A B
    refine Finset.sum_congr rfl fun k _ => ?_
    -- a block's coordinate in its array is (block index) · (block size) + (coordinate inside the block), axis by axis
    have hx : ((cfg0.win 0).blk t).view.emb (ix2 (j 0) k) = ix2 ((((cfg0.win 2).blk t).view.emb j) 0) k := by
      funext a; apply Fin.ext
      match a with
      | ⟨0, _⟩ => show win0_0.index t (0 : Fin 2) * 10000 + 1 * (j 0).val = win0_2.index t (0 : Fin 2) * 10000 + 1 * (j 0).val; omega
      | ⟨1, _⟩ => show win0_0.index t (1 : Fin 2) * 128 + 1 * k.val = k.val; omega
    have hw : ((cfg0.win 1).blk t).view.emb (ix2 k (j 1)) = ix2 k ((((cfg0.win 2).blk t).view.emb j) 1) := by
      funext a; apply Fin.ext
      match a with
      | ⟨0, _⟩ => show win0_1.index t (0 : Fin 2) * 128 + 1 * k.val = k.val; omega
      | ⟨1, _⟩ => show win0_1.index t (1 : Fin 2) * 64 + 1 * (j 1).val = win0_2.index t (1 : Fin 2) * 64 + 1 * (j 1).val; omega
    exact congrArg₂ (· * ·) (congrArg A hx) (congrArg B hw)
  exact key (V c main_arg0) (V c main_arg2)

/-- An entry of the output array is in grid point t's block exactly when, on each axis, its coordinate lies in the
    block's range: 10000 rows from 10000 · (row block), all 64 columns. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- The ten blocks cover the array: row r is in row block r / 10000, which some grid point writes back. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blockOnto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region's ten points: the matrix product of the two arrays as the region found them. -/
theorem region0_value : (dat0 (F := Ideal) V c).arrAt 2 cfg0.N = Cert.Spec.mm (V c main_arg0) (V c main_arg2) :=
  (dat0 V c).arrAt_eq_of_cover 2 _ (fun t _ => flushed0_eq V c t) cover0

/-! ## Region 2: the block of rows times the whole weight matrix -/

/-- The body's result at entry (p, q) of its block: the exact sum over the 64 contracted coordinates of
    x(p, k) · w(k, q). The two changes of float format and the recast to the same shape are the identity at the
    ideal values, and the accumulator starts at zero. -/
theorem matmulPayload2_apply (x0 : Vec Ideal S10000x64 .f32) (x1 : Vec Ideal S64x64 .f32) (j : S10000x64.Idx) :
    k2_pay1 x0 x1 j = ∑ k : Fin 64, x0 (ix2 (j 0) k) * x1 (ix2 k (j 1)) := by
  unfold k2_pay1
  rw [shapeCast_self]
  exact Cert.KernelIdeal.Hand.matmul_zero_plain_apply _ rfl none _ _ j

/-- Which blocks a grid point works on, decided once over the ten points: the left operand's block of rows moves with the
    output's, always over all columns (column block 0); the weight matrix is always its one whole block; the output's row
    block is one of 0 … 9 and its column block is 0. -/
theorem blockIndex2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every one of the ten row blocks of the output is some grid point's. -/
theorem blockOnto2 : ∀ q0 : Fin 10, ∃ t : Fin cfg2.N, win2_2.index t = ![q0.val, 0] :=
  (by decide +kernel : ∀ q0 : Fin 10, ∃ t : Fin grid2.N, win2_2.index t = ![q0.val, 0])

/-- What grid point t writes back is block t of the matrix product of the two whole arrays. Entry (p, q) of the block
    sits at row 10000 · (row block) + p and column q of the array; it depends on that one row of the left array — read
    through the left operand's block, which starts at the same row — and on column q of the weight matrix, whose block
    is the whole matrix. So the block's sum over k and the array's sum over k agree term by term. -/
theorem flushed2_eq (t : Fin cfg2.N) :
    (dat2 (F := Ideal) V c).flushed 2 t
      = ((cfg2.win 2).blk t).view.read (Elt Ideal) (Cert.Spec.mm (V c main_v45) (V c main_arg4)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S64x64) zeroOffsets]
  obtain ⟨e0, e1, e2, e3, e4, e5⟩ := blockIndex2 t
  funext j
  refine (matmulPayload2_apply (iblk2 V c 0 t) (iblk2 V c 1 t) j).trans ?_
  have key : ∀ (A : FVec Ideal S100000x64 .f32) (B : FVec Ideal S64x64 .f32),
      ∑ k : Fin 64, A (((cfg2.win 0).blk t).view.emb (ix2 (j 0) k)) * B (((cfg2.win 1).blk t).view.emb (ix2 k (j 1)))
        = ∑ k : Fin 64, A (ix2 ((((cfg2.win 2).blk t).view.emb j) 0) k) * B (ix2 k ((((cfg2.win 2).blk t).view.emb j) 1)) := by
    intro A B
    refine Finset.sum_congr rfl fun k _ => ?_
    -- a block's coordinate in its array is (block index) · (block size) + (coordinate inside the block), axis by axis
    have hx : ((cfg2.win 0).blk t).view.emb (ix2 (j 0) k) = ix2 ((((cfg2.win 2).blk t).view.emb j) 0) k := by
      funext a; apply Fin.ext
      match a with
      | ⟨0, _⟩ => show win2_0.index t (0 : Fin 2) * 10000 + 1 * (j 0).val = win2_2.index t (0 : Fin 2) * 10000 + 1 * (j 0).val; omega
      | ⟨1, _⟩ => show win2_0.index t (1 : Fin 2) * 64 + 1 * k.val = k.val; omega
    have hw : ((cfg2.win 1).blk t).view.emb (ix2 k (j 1)) = ix2 k ((((cfg2.win 2).blk t).view.emb j) 1) := by
      funext a; apply Fin.ext
      match a with
      | ⟨0, _⟩ => show win2_1.index t (0 : Fin 2) * 64 + 1 * k.val = k.val; omega
      | ⟨1, _⟩ => show win2_1.index t (1 : Fin 2) * 64 + 1 * (j 1).val = win2_2.index t (1 : Fin 2) * 64 + 1 * (j 1).val; omega
    exact congrArg₂ (· * ·) (congrArg A hx) (congrArg B hw)
  exact key (V c main_v45) (V c main_arg4)

/-- An entry of the output array is in grid point t's block exactly when, on each axis, its coordinate lies in the
    block's range: 10000 rows from 10000 · (row block), all 64 columns. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- The ten blocks cover the array: row r is in row block r / 10000, which some grid point writes back. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := blockOnto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region's ten points: the matrix product of the two arrays as the region found them. -/
theorem region2_value : (dat2 (F := Ideal) V c).arrAt 2 cfg2.N = Cert.Spec.mm (V c main_v45) (V c main_arg4) :=
  (dat2 V c).arrAt_eq_of_cover 2 _ (fun t _ => flushed2_eq V c t) cover2

/-! ## Region 4: the block of rows times the whole weight matrix -/

/-- The body's result at entry (p, q) of its block: the exact sum over the 64 contracted coordinates of
    x(p, k) · w(k, q). The two changes of float format and the recast to the same shape are the identity at the
    ideal values, and the accumulator starts at zero. -/
theorem matmulPayload4_apply (x0 : Vec Ideal S10000x64 .f32) (x1 : Vec Ideal S64x64 .f32) (j : S10000x64.Idx) :
    k4_pay1 x0 x1 j = ∑ k : Fin 64, x0 (ix2 (j 0) k) * x1 (ix2 k (j 1)) := by
  unfold k4_pay1
  rw [shapeCast_self]
  exact Cert.KernelIdeal.Hand.matmul_zero_plain_apply _ rfl none _ _ j

/-- Which blocks a grid point works on, decided once over the ten points: the left operand's block of rows moves with the
    output's, always over all columns (column block 0); the weight matrix is always its one whole block; the output's row
    block is one of 0 … 9 and its column block is 0. -/
theorem blockIndex4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 9
    ∧ win4_2.index t (1 : Fin 2) = 0 :=
  (by decide +kernel : ∀ t : Fin grid4.N, _)

/-- Every one of the ten row blocks of the output is some grid point's. -/
theorem blockOnto4 : ∀ q0 : Fin 10, ∃ t : Fin cfg4.N, win4_2.index t = ![q0.val, 0] :=
  (by decide +kernel : ∀ q0 : Fin 10, ∃ t : Fin grid4.N, win4_2.index t = ![q0.val, 0])

/-- What grid point t writes back is block t of the matrix product of the two whole arrays. Entry (p, q) of the block
    sits at row 10000 · (row block) + p and column q of the array; it depends on that one row of the left array — read
    through the left operand's block, which starts at the same row — and on column q of the weight matrix, whose block
    is the whole matrix. So the block's sum over k and the array's sum over k agree term by term. -/
theorem flushed4_eq (t : Fin cfg4.N) :
    (dat4 (F := Ideal) V c).flushed 2 t
      = ((cfg4.win 2).blk t).view.read (Elt Ideal) (Cert.Spec.mm (V c main_v60) (V c main_arg6)) := by
  show (cfg4.win 2).cut (grid4.coords t) ((dat4 V c).after 2 t) = _
  rw [after4_2]
  unfold out4_2
  rw [View.canon_unit_zero zeroOffsets]
  simp only [View.ld_unit_zero (S := S10000x64) zeroOffsets, View.ld_unit_zero (S := S64x64) zeroOffsets]
  obtain ⟨e0, e1, e2, e3, e4, e5⟩ := blockIndex4 t
  funext j
  refine (matmulPayload4_apply (iblk4 V c 0 t) (iblk4 V c 1 t) j).trans ?_
  have key : ∀ (A : FVec Ideal S100000x64 .f32) (B : FVec Ideal S64x64 .f32),
      ∑ k : Fin 64, A (((cfg4.win 0).blk t).view.emb (ix2 (j 0) k)) * B (((cfg4.win 1).blk t).view.emb (ix2 k (j 1)))
        = ∑ k : Fin 64, A (ix2 ((((cfg4.win 2).blk t).view.emb j) 0) k) * B (ix2 k ((((cfg4.win 2).blk t).view.emb j) 1)) := by
    intro A B
    refine Finset.sum_congr rfl fun k _ => ?_
    -- a block's coordinate in its array is (block index) · (block size) + (coordinate inside the block), axis by axis
    have hx : ((cfg4.win 0).blk t).view.emb (ix2 (j 0) k) = ix2 ((((cfg4.win 2).blk t).view.emb j) 0) k := by
      funext a; apply Fin.ext
      match a with
      | ⟨0, _⟩ => show win4_0.index t (0 : Fin 2) * 10000 + 1 * (j 0).val = win4_2.index t (0 : Fin 2) * 10000 + 1 * (j 0).val; omega
      | ⟨1, _⟩ => show win4_0.index t (1 : Fin 2) * 64 + 1 * k.val = k.val; omega
    have hw : ((cfg4.win 1).blk t).view.emb (ix2 k (j 1)) = ix2 k ((((cfg4.win 2).blk t).view.emb j) 1) := by
      funext a; apply Fin.ext
      match a with
      | ⟨0, _⟩ => show win4_1.index t (0 : Fin 2) * 64 + 1 * k.val = k.val; omega
      | ⟨1, _⟩ => show win4_1.index t (1 : Fin 2) * 64 + 1 * (j 1).val = win4_2.index t (1 : Fin 2) * 64 + 1 * (j 1).val; omega
    exact congrArg₂ (· * ·) (congrArg A hx) (congrArg B hw)
  exact key (V c main_v60) (V c main_arg6)

/-- An entry of the output array is in grid point t's block exactly when, on each axis, its coordinate lies in the
    block's range: 10000 rows from 10000 · (row block), all 64 columns. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- The ten blocks cover the array: row r is in row block r / 10000, which some grid point writes back. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := blockOnto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array after the region's ten points: the matrix product of the two arrays as the region found them. -/
theorem region4_value : (dat4 (F := Ideal) V c).arrAt 2 cfg4.N = Cert.Spec.mm (V c main_v60) (V c main_arg6) :=
  (dat4 V c).arrAt_eq_of_cover 2 _ (fun t _ => flushed4_eq V c t) cover4

/-! ## Region 1: the bias row added along every row of the block, then the maximum with zero -/

/-- The body's result at entry (p, q) of its block: max(a(p, q) + r(0, q), 0). The recasts to the same shape are the
    identity, the one-row bias matrix laid down the block's rows reads its entry (0, q) at every row, and the splat of
    the zero word reads that word everywhere. -/
theorem biasReluPayload1_apply (x0 : Vec Ideal S1x64 .f32) (x1 : Vec Ideal S10000x64 .f32) (j : S10000x64.Idx) :
    k1_pay1 x0 x1 j = max (x1 j + x0 (ix2 (0 : Fin 1) (j 1))) (Ideal.ofBits .f32 0x00000000#32) := by
  obtain ⟨p, q, rfl⟩ : ∃ (p : Fin 10000) (q : Fin 64), j = ix2 p q := ⟨j 0, j 1, eq_ix2 j⟩
  unfold k1_pay1
  rw [shapeCast_self, shapeCast_self, shapeCast_self, maximumf_apply, addf_apply, broadcast_apply]
  refine congrArg₂ max (congrArg₂ (· + ·) rfl ?_) rfl
  exact Cert.LibAffineAt.broadcastTo_oneRow_apply x0 _ p q

/-- Which blocks a grid point works on, decided once over the ten points: the input's block of rows moves with the
    output's, over all columns; the bias row is always its one whole block; the output's row block is one of 0 … 9 and
    its column block is 0. -/
theorem blockIndex1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks of the output is some grid point's. -/
theorem blockOnto1 : ∀ q0 : Fin 10, ∃ t : Fin cfg1.N, win1_2.index t = ![q0.val, 0] :=
  (by decide +kernel : ∀ q0 : Fin 10, ∃ t : Fin grid1.N, win1_2.index t = ![q0.val, 0])

/-- What grid point t writes back is block t of the bias-and-maximum of the two whole arrays. Entry (p, q) of the
    block sits at row 10000 · (row block) + p and column q of the array; it depends on the input array's entry at that
    same place — the input's block starts at the same row — and on the bias row's entry (0, q), whose block is the whole
    row. -/
theorem flushed1_eq (t : Fin cfg1.N) :
    (dat1 (F := Ideal) V c).flushed 2 t
      = ((cfg1.win 2).blk t).view.read (Elt Ideal) (Cert.Spec.biasReluRow (V c main_v43) (V c main_v44)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S1x64) zeroOffsets]
  obtain ⟨e0, e1, e2, e3, e4, e5⟩ := blockIndex1 t
  funext j
  refine (biasReluPayload1_apply (iblk1 V c 1 t) (iblk1 V c 0 t) j).trans ?_
  have key : ∀ (A : FVec Ideal S100000x64 .f32) (B : FVec Ideal S1x64 .f32),
      max (A (((cfg1.win 0).blk t).view.emb j) + B (((cfg1.win 1).blk t).view.emb (ix2 (0 : Fin 1) (j 1)))) (Ideal.ofBits .f32 0x00000000#32)
        = max (A (((cfg1.win 2).blk t).view.emb j) + B (ix2 (0 : Fin 1) ((((cfg1.win 2).blk t).view.emb j) 1))) (Ideal.ofBits .f32 0x00000000#32) := by
    intro A B
    -- a block's coordinate in its array is (block index) · (block size) + (coordinate inside the block), axis by axis
    have ha : ((cfg1.win 0).blk t).view.emb j = ((cfg1.win 2).blk t).view.emb j := by
      funext a; apply Fin.ext
      match a with
      | ⟨0, _⟩ => show win1_0.index t (0 : Fin 2) * 10000 + 1 * (j 0).val = win1_2.index t (0 : Fin 2) * 10000 + 1 * (j 0).val; omega
      | ⟨1, _⟩ => show win1_0.index t (1 : Fin 2) * 64 + 1 * (j 1).val = win1_2.index t (1 : Fin 2) * 64 + 1 * (j 1).val; omega
    have hb : ((cfg1.win 1).blk t).view.emb (ix2 (0 : Fin 1) (j 1)) = ix2 (0 : Fin 1) ((((cfg1.win 2).blk t).view.emb j) 1) := by
      funext a; apply Fin.ext
      match a with
      | ⟨0, _⟩ => show win1_1.index t (0 : Fin 2) * 1 + 1 * 0 = 0; omega
      | ⟨1, _⟩ => show win1_1.index t (1 : Fin 2) * 64 + 1 * (j 1).val = win1_2.index t (1 : Fin 2) * 64 + 1 * (j 1).val; omega
    exact congrArg₂ max (congrArg₂ (· + ·) (congrArg A ha) (congrArg B hb)) rfl
  exact key (V c main_v43) (V c main_v44)

/-- An entry of the output array is in grid point t's block exactly when, on each axis, its coordinate lies in the
    block's range: 10000 rows from 10000 · (row block), all 64 columns. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The ten blocks cover the array: row r is in row block r / 10000, which some grid point writes back. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := blockOnto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region's ten points: the bias row added along every row of the input array as the region
    found it, then the maximum with zero. -/
theorem region1_value : (dat1 (F := Ideal) V c).arrAt 2 cfg1.N = Cert.Spec.biasReluRow (V c main_v43) (V c main_v44) :=
  (dat1 V c).arrAt_eq_of_cover 2 _ (fun t _ => flushed1_eq V c t) cover1

/-! ## Region 3: the bias row added along every row of the block, then the maximum with zero -/

/-- The body's result at entry (p, q) of its block: max(a(p, q) + r(0, q), 0). The recasts to the same shape are the
    identity, the one-row bias matrix laid down the block's rows reads its entry (0, q) at every row, and the splat of
    the zero word reads that word everywhere. -/
theorem biasReluPayload3_apply (x0 : Vec Ideal S1x64 .f32) (x1 : Vec Ideal S10000x64 .f32) (j : S10000x64.Idx) :
    k3_pay1 x0 x1 j = max (x1 j + x0 (ix2 (0 : Fin 1) (j 1))) (Ideal.ofBits .f32 0x00000000#32) := by
  obtain ⟨p, q, rfl⟩ : ∃ (p : Fin 10000) (q : Fin 64), j = ix2 p q := ⟨j 0, j 1, eq_ix2 j⟩
  unfold k3_pay1
  rw [shapeCast_self, shapeCast_self, shapeCast_self, maximumf_apply, addf_apply, broadcast_apply]
  refine congrArg₂ max (congrArg₂ (· + ·) rfl ?_) rfl
  exact Cert.LibAffineAt.broadcastTo_oneRow_apply x0 _ p q

/-- Which blocks a grid point works on, decided once over the ten points: the input's block of rows moves with the
    output's, over all columns; the bias row is always its one whole block; the output's row block is one of 0 … 9 and
    its column block is 0. -/
theorem blockIndex3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks of the output is some grid point's. -/
theorem blockOnto3 : ∀ q0 : Fin 10, ∃ t : Fin cfg3.N, win3_2.index t = ![q0.val, 0] :=
  (by decide +kernel : ∀ q0 : Fin 10, ∃ t : Fin grid3.N, win3_2.index t = ![q0.val, 0])

/-- What grid point t writes back is block t of the bias-and-maximum of the two whole arrays. Entry (p, q) of the
    block sits at row 10000 · (row block) + p and column q of the array; it depends on the input array's entry at that
    same place — the input's block starts at the same row — and on the bias row's entry (0, q), whose block is the whole
    row. -/
theorem flushed3_eq (t : Fin cfg3.N) :
    (dat3 (F := Ideal) V c).flushed 2 t
      = ((cfg3.win 2).blk t).view.read (Elt Ideal) (Cert.Spec.biasReluRow (V c main_v58) (V c main_v59)) := by
  show (cfg3.win 2).cut (grid3.coords t) ((dat3 V c).after 2 t) = _
  rw [after3_2]
  unfold out3_2
  rw [View.canon_unit_zero zeroOffsets]
  simp only [View.ld_unit_zero (S := S10000x64) zeroOffsets, View.ld_unit_zero (S := S1x64) zeroOffsets]
  obtain ⟨e0, e1, e2, e3, e4, e5⟩ := blockIndex3 t
  funext j
  refine (biasReluPayload3_apply (iblk3 V c 1 t) (iblk3 V c 0 t) j).trans ?_
  have key : ∀ (A : FVec Ideal S100000x64 .f32) (B : FVec Ideal S1x64 .f32),
      max (A (((cfg3.win 0).blk t).view.emb j) + B (((cfg3.win 1).blk t).view.emb (ix2 (0 : Fin 1) (j 1)))) (Ideal.ofBits .f32 0x00000000#32)
        = max (A (((cfg3.win 2).blk t).view.emb j) + B (ix2 (0 : Fin 1) ((((cfg3.win 2).blk t).view.emb j) 1))) (Ideal.ofBits .f32 0x00000000#32) := by
    intro A B
    -- a block's coordinate in its array is (block index) · (block size) + (coordinate inside the block), axis by axis
    have ha : ((cfg3.win 0).blk t).view.emb j = ((cfg3.win 2).blk t).view.emb j := by
      funext a; apply Fin.ext
      match a with
      | ⟨0, _⟩ => show win3_0.index t (0 : Fin 2) * 10000 + 1 * (j 0).val = win3_2.index t (0 : Fin 2) * 10000 + 1 * (j 0).val; omega
      | ⟨1, _⟩ => show win3_0.index t (1 : Fin 2) * 64 + 1 * (j 1).val = win3_2.index t (1 : Fin 2) * 64 + 1 * (j 1).val; omega
    have hb : ((cfg3.win 1).blk t).view.emb (ix2 (0 : Fin 1) (j 1)) = ix2 (0 : Fin 1) ((((cfg3.win 2).blk t).view.emb j) 1) := by
      funext a; apply Fin.ext
      match a with
      | ⟨0, _⟩ => show win3_1.index t (0 : Fin 2) * 1 + 1 * 0 = 0; omega
      | ⟨1, _⟩ => show win3_1.index t (1 : Fin 2) * 64 + 1 * (j 1).val = win3_2.index t (1 : Fin 2) * 64 + 1 * (j 1).val; omega
    exact congrArg₂ max (congrArg₂ (· + ·) (congrArg A ha) (congrArg B hb)) rfl
  exact key (V c main_v58) (V c main_v59)

/-- An entry of the output array is in grid point t's block exactly when, on each axis, its coordinate lies in the
    block's range: 10000 rows from 10000 · (row block), all 64 columns. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v60).slice (win3_2.rect t)).set ↔ _
  rw [View.set_slice_whole, Rect.mem_set_unit]
  exact Iff.rfl

/-- The ten blocks cover the array: row r is in row block r / 10000, which some grid point writes back. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := blockOnto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region's ten points: the bias row added along every row of the input array as the region
    found it, then the maximum with zero. -/
theorem region3_value : (dat3 (F := Ideal) V c).arrAt 2 cfg3.N = Cert.Spec.biasReluRow (V c main_v58) (V c main_v59) :=
  (dat3 V c).arrAt_eq_of_cover 2 _ (fun t _ => flushed3_eq V c t) cover3

/-! ## Region 5: the bias row added along every row of the block, then the maximum with zero -/

/-- The body's result at entry (p, q) of its block: max(a(p, q) + r(0, q), 0). The recasts to the same shape are the
    identity, the one-row bias matrix laid down the block's rows reads its entry (0, q) at every row, and the splat of
    the zero word reads that word everywhere. -/
theorem biasReluPayload5_apply (x0 : Vec Ideal S1x64 .f32) (x1 : Vec Ideal S10000x64 .f32) (j : S10000x64.Idx) :
    k5_pay1 x0 x1 j = max (x1 j + x0 (ix2 (0 : Fin 1) (j 1))) (Ideal.ofBits .f32 0x00000000#32) := by
  obtain ⟨p, q, rfl⟩ : ∃ (p : Fin 10000) (q : Fin 64), j = ix2 p q := ⟨j 0, j 1, eq_ix2 j⟩
  unfold k5_pay1
  rw [shapeCast_self, shapeCast_self, shapeCast_self, maximumf_apply, addf_apply, broadcast_apply]
  refine congrArg₂ max (congrArg₂ (· + ·) rfl ?_) rfl
  exact Cert.LibAffineAt.broadcastTo_oneRow_apply x0 _ p q

/-- Which blocks a grid point works on, decided once over the ten points: the input's block of rows moves with the
    output's, over all columns; the bias row is always its one whole block; the output's row block is one of 0 … 9 and
    its column block is 0. -/
theorem blockIndex5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) ≤ 9
    ∧ win5_2.index t (1 : Fin 2) = 0 :=
  (by decide +kernel : ∀ t : Fin grid5.N, _)

/-- Every one of the ten row blocks of the output is some grid point's. -/
theorem blockOnto5 : ∀ q0 : Fin 10, ∃ t : Fin cfg5.N, win5_2.index t = ![q0.val, 0] :=
  (by decide +kernel : ∀ q0 : Fin 10, ∃ t : Fin grid5.N, win5_2.index t = ![q0.val, 0])

/-- What grid point t writes back is block t of the bias-and-maximum of the two whole arrays. Entry (p, q) of the
    block sits at row 10000 · (row block) + p and column q of the array; it depends on the input array's entry at that
    same place — the input's block starts at the same row — and on the bias row's entry (0, q), whose block is the whole
    row. -/
theorem flushed5_eq (t : Fin cfg5.N) :
    (dat5 (F := Ideal) V c).flushed 2 t
      = ((cfg5.win 2).blk t).view.read (Elt Ideal) (Cert.Spec.biasReluRow (V c main_v73) (V c main_v74)) := by
  show (cfg5.win 2).cut (grid5.coords t) ((dat5 V c).after 2 t) = _
  rw [after5_2]
  unfold out5_2
  rw [View.canon_unit_zero zeroOffsets]
  simp only [View.ld_unit_zero (S := S10000x64) zeroOffsets, View.ld_unit_zero (S := S1x64) zeroOffsets]
  obtain ⟨e0, e1, e2, e3, e4, e5⟩ := blockIndex5 t
  funext j
  refine (biasReluPayload5_apply (iblk5 V c 1 t) (iblk5 V c 0 t) j).trans ?_
  have key : ∀ (A : FVec Ideal S100000x64 .f32) (B : FVec Ideal S1x64 .f32),
      max (A (((cfg5.win 0).blk t).view.emb j) + B (((cfg5.win 1).blk t).view.emb (ix2 (0 : Fin 1) (j 1)))) (Ideal.ofBits .f32 0x00000000#32)
        = max (A (((cfg5.win 2).blk t).view.emb j) + B (ix2 (0 : Fin 1) ((((cfg5.win 2).blk t).view.emb j) 1))) (Ideal.ofBits .f32 0x00000000#32) := by
    intro A B
    -- a block's coordinate in its array is (block index) · (block size) + (coordinate inside the block), axis by axis
    have ha : ((cfg5.win 0).blk t).view.emb j = ((cfg5.win 2).blk t).view.emb j := by
      funext a; apply Fin.ext
      match a with
      | ⟨0, _⟩ => show win5_0.index t (0 : Fin 2) * 10000 + 1 * (j 0).val = win5_2.index t (0 : Fin 2) * 10000 + 1 * (j 0).val; omega
      | ⟨1, _⟩ => show win5_0.index t (1 : Fin 2) * 64 + 1 * (j 1).val = win5_2.index t (1 : Fin 2) * 64 + 1 * (j 1).val; omega
    have hb : ((cfg5.win 1).blk t).view.emb (ix2 (0 : Fin 1) (j 1)) = ix2 (0 : Fin 1) ((((cfg5.win 2).blk t).view.emb j) 1) := by
      funext a; apply Fin.ext
      match a with
      | ⟨0, _⟩ => show win5_1.index t (0 : Fin 2) * 1 + 1 * 0 = 0; omega
      | ⟨1, _⟩ => show win5_1.index t (1 : Fin 2) * 64 + 1 * (j 1).val = win5_2.index t (1 : Fin 2) * 64 + 1 * (j 1).val; omega
    exact congrArg₂ max (congrArg₂ (· + ·) (congrArg A ha) (congrArg B hb)) rfl
  exact key (V c main_v73) (V c main_v74)

/-- An entry of the output array is in grid point t's block exactly when, on each axis, its coordinate lies in the
    block's range: 10000 rows from 10000 · (row block), all 64 columns. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v75).slice (win5_2.rect t)).set ↔ _
  rw [View.set_slice_whole, Rect.mem_set_unit]
  exact Iff.rfl

/-- The ten blocks cover the array: row r is in row block r / 10000, which some grid point writes back. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := blockOnto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region's ten points: the bias row added along every row of the input array as the region
    found it, then the maximum with zero. -/
theorem region5_value : (dat5 (F := Ideal) V c).arrAt 2 cfg5.N = Cert.Spec.biasReluRow (V c main_v73) (V c main_v74) :=
  (dat5 V c).arrAt_eq_of_cover 2 _ (fun t _ => flushed5_eq V c t) cover5

end Cert.KernelIdeal.Dense

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.KHead.lean ====
/-
  What the last region of the kernel, the fused head, leaves in its output array, as one function of the arrays it reads.

  The region walks the 100000 rows of the feature matrix in ten blocks of 10000 rows. On a block h (10000 × 64), with the
  whole weight matrix w (64 × 2) and the bias row r (1 × 2), its body computes
      l(p, q)  = Σ_k h(p, k) · w(k, q) + r(0, q)                       (the logits; the change of float format before the
                                                                         product is the identity at the ideal values),
      M_p      = max over q of l(p, q), folded from −∞,
      out(p,q) = (l(p, q) − M_p) − log Σ_k exp(l(p, k) − M_p),
  the row maximum and the logarithm of the row sum being kept as columns and laid back along the two entries of the row.
  That is the head of the specification at 10000 rows (`pay6_eq`).

  Row p of that function reads row p of the features and nothing else of them (`headRow_row`). The feature block of point t
  is rows 10000·t … 10000·t + 9999 of the feature array, the weight and bias blocks are the whole arrays, and the output
  block of point t is the same rows of the output array; so what point t writes back is its block of the head of the whole
  arrays (`flushed_eq`). The ten blocks cover every row (row i lies in block i / 10000), hence the output array ends
  holding the head of the whole arrays (`region6_value`).
-/
import proofs.«122782_j74371653697680_1_alg».proof.Proof.Gen.KernelIdeal.Frame
import proofs.«122782_j74371653697680_1_alg».proof.Proof.Spec
import proofs.«122782_j74371653697680_1_alg».proof.Proof.LibAffineAt
import proofs.«122782_j74371653697680_1_alg».proof.Proof.LibKeepdims

noncomputable section
namespace Cert.KernelIdeal.Head
open Cert.KernelIdeal Cert.KernelIdeal.Gen
open Idealize.ShloMosaic Idealize.ShloMosaic.TcCoe Idealize.SL.Sem
open Idealize.ShloMosaic.ValueIdx

/-- The affine part of the block computation. -/
def blockLogits (x0 : Vec Ideal S10000x64 .f32) (x1 : Vec Ideal S64x2 .f32) (x2 : Vec Ideal S1x2 .f32) : FVec Ideal S10000x2 .f32 :=
  addf (matmul dot_S10000x64_S64x2_S10000x2_1_0_0_1_n_n none
      (truncf .bf16 (shapeCast S10000x64 x0 shapeCasts_S10000x64_S10000x64) bitsLt_bf16_f32) (truncf .bf16 x1 bitsLt_bf16_f32)
      (constant S10000x2 .f32 0x00000000#32))
    (broadcastTo S10000x2 (shapeCast S1x2 (shapeCast S1x2 x2 shapeCasts_S1x2_S1x2) shapeCasts_S1x2_S1x2) broadcasts_S1x2_S10000x2)

/-- The row maximum kept as a column and laid back along the row. -/
def keptMax (l : FVec Ideal S10000x2 .f32) : FVec Ideal S10000x2 .f32 :=
  broadcastTo S10000x2 (shapeCast S10000x1
    (multiReduction .maximumf [1] S10000 l 0xFF800000#32 reduces_S10000x2_S10000 (.inl rfl) rfl) shapeCasts_S10000_S10000x1)
    broadcasts_S10000x1_S10000x2

/-- The logarithm of the row sum kept as a column and laid back along the row. -/
def keptLogSum (e : FVec Ideal S10000x2 .f32) : FVec Ideal S10000x2 .f32 :=
  broadcastTo S10000x2 (log (shapeCast S10000x1
    (multiReduction .add [1] S10000 e 0x00000000#32 reduces_S10000x2_S10000 (.inl rfl) rfl) shapeCasts_S10000_S10000x1))
    broadcasts_S10000x1_S10000x2

/-- The body's payload is the shifted log-softmax chain applied to the affine part: the logits l, then l minus the kept row
    maximum, then that minus the kept logarithm of the row sum of its exponentials. -/
theorem pay6_shape (x0 : Vec Ideal S10000x64 .f32) (x1 : Vec Ideal S64x2 .f32) (x2 : Vec Ideal S1x2 .f32) :
    k6_pay1 x0 x1 x2
      = subf (subf (blockLogits x0 x1 x2) (keptMax (blockLogits x0 x1 x2)))
          (keptLogSum (exp (subf (blockLogits x0 x1 x2) (keptMax (blockLogits x0 x1 x2))))) := rfl

/-- The affine part is the specification's logits on the block: at (p, q) the exact sum Σ_k h(p, k) · w(k, q) plus the bias
    row's entry q (recasts to the same shape are identities, the change of float format is the identity). -/
theorem blockLogits_eq (x0 : Vec Ideal S10000x64 .f32) (x1 : Vec Ideal S64x2 .f32) (x2 : Vec Ideal S1x2 .f32) :
    blockLogits x0 x1 x2 = Cert.Spec.logitsRow x0 x1 x2 := by
  funext j
  obtain ⟨p, q, rfl⟩ : ∃ (p : Fin 10000) (q : Fin 2), j = ix2 p q := ⟨j 0, j 1, eq_ix2 j⟩
  unfold blockLogits
  rw [shapeCast_self, shapeCast_self, shapeCast_self]
  exact Cert.LibAffineAt.block_at dot_S10000x64_S64x2_S10000x2_1_0_0_1_n_n rfl broadcasts_S1x2_S10000x2 x0 x1 x2 bitsLt_bf16_f32 p q

/-- The kept row maximum at (p, q) is the maximum of row p, folded from −∞, whatever q. -/
theorem keptMax_apply (l : FVec Ideal S10000x2 .f32) (p : Fin 10000) (q : Fin 2) :
    keptMax l (ix2 p q) = Cert.Spec.rowMax l p :=
  (Cert.Lib.Keepdims.broadcastTo_a1_ab_apply _ broadcasts_S10000x1_S10000x2 p q).trans
    ((Cert.Lib.Keepdims.shapeCast_a_a1_apply _ shapeCasts_S10000_S10000x1 p 0).trans
      (Cert.Lib.Keepdims.rowMaximum_apply l 0xFF800000#32 reduces_S10000x2_S10000 (.inl rfl) rfl p))

/-- The kept logarithm of the row sum at (p, q) is the logarithm of the sum of row p, whatever q. -/
theorem keptLogSum_apply (e : FVec Ideal S10000x2 .f32) (p : Fin 10000) (q : Fin 2) :
    keptLogSum e (ix2 p q) = Ideal.log (∑ k : Fin 2, e (ix2 p k)) :=
  (Cert.Lib.Keepdims.broadcastTo_a1_ab_apply _ broadcasts_S10000x1_S10000x2 p q).trans
    (congrArg Ideal.log ((Cert.Lib.Keepdims.shapeCast_a_a1_apply _ shapeCasts_S10000_S10000x1 p 0).trans
      (Cert.Lib.Keepdims.rowSum_apply e 0x00000000#32 reduces_S10000x2_S10000 (.inl rfl) rfl p)))

/-- The shifted log-softmax of a block of logits, index by index. -/
theorem tail_eq (l : FVec Ideal S10000x2 .f32) :
    subf (subf l (keptMax l)) (keptLogSum (exp (subf l (keptMax l)))) = Cert.Spec.logSoftmax l := by
  funext j
  obtain ⟨p, q, rfl⟩ : ∃ (p : Fin 10000) (q : Fin 2), j = ix2 p q := ⟨j 0, j 1, eq_ix2 j⟩
  unfold Cert.Spec.logSoftmax
  rw [subf_apply, subf_apply, keptMax_apply, keptLogSum_apply]
  show (l (ix2 p q) - Cert.Spec.rowMax l p) - Ideal.log (∑ k : Fin 2, Ideal.exp (l (ix2 p k) - keptMax l (ix2 p k)))
    = (l (ix2 p q) - Cert.Spec.rowMax l p) - Ideal.log (∑ k : Fin 2, Ideal.exp (l (ix2 p k) - Cert.Spec.rowMax l p))
  simp only [keptMax_apply]

/-- On a block the body computes the head of the specification at 10000 rows. -/
theorem pay6_eq (x0 : Vec Ideal S10000x64 .f32) (x1 : Vec Ideal S64x2 .f32) (x2 : Vec Ideal S1x2 .f32) :
    k6_pay1 x0 x1 x2 = Cert.Spec.headRow x0 x1 x2 := by
  rw [pay6_shape, tail_eq, blockLogits_eq]
  rfl

/-! ## From a block to the array -/

/-- Row p of the logits depends on row p of the features only: two feature matrices that agree on a row give the same
    logits on that row (same weights, same bias). -/
theorem logitsRow_row {M M' K N : Nat} (h : FVec Ideal ⟨2, ![M, K]⟩ .f32) (h' : FVec Ideal ⟨2, ![M', K]⟩ .f32)
    (w : FVec Ideal ⟨2, ![K, N]⟩ .f32) (r : FVec Ideal ⟨2, ![1, N]⟩ .f32) (p : Fin M) (p' : Fin M')
    (hh : ∀ k : Fin K, h (ix2 p k) = h' (ix2 p' k)) (q : Fin N) :
    Cert.Spec.logitsRow h w r (ix2 p q) = Cert.Spec.logitsRow h' w r (ix2 p' q) := by
  show (∑ k : Fin K, h (ix2 p k) * w (ix2 k q)) + r (ix2 (0 : Fin 1) q) = (∑ k : Fin K, h' (ix2 p' k) * w (ix2 k q)) + r (ix2 (0 : Fin 1) q)
  simp only [hh]

/-- The log-softmax of a row depends on that row only. -/
theorem logSoftmax_row {M M' N : Nat} (l : FVec Ideal ⟨2, ![M, N]⟩ .f32) (l' : FVec Ideal ⟨2, ![M', N]⟩ .f32) (p : Fin M) (p' : Fin M')
    (hl : ∀ q : Fin N, l (ix2 p q) = l' (ix2 p' q)) (q : Fin N) :
    Cert.Spec.logSoftmax l (ix2 p q) = Cert.Spec.logSoftmax l' (ix2 p' q) := by
  have hm : Cert.Spec.rowMax l p = Cert.Spec.rowMax l' p' := by
    unfold Cert.Spec.rowMax
    simp only [hl]
  show (l (ix2 p q) - Cert.Spec.rowMax l p) - Ideal.log (∑ k : Fin N, Ideal.exp (l (ix2 p k) - Cert.Spec.rowMax l p))
    = (l' (ix2 p' q) - Cert.Spec.rowMax l' p') - Ideal.log (∑ k : Fin N, Ideal.exp (l' (ix2 p' k) - Cert.Spec.rowMax l' p'))
  simp only [hl, hm]

/-- The head of a row depends on that row of the features only. -/
theorem headRow_row {M M' K N : Nat} (h : FVec Ideal ⟨2, ![M, K]⟩ .f32) (h' : FVec Ideal ⟨2, ![M', K]⟩ .f32)
    (w : FVec Ideal ⟨2, ![K, N]⟩ .f32) (r : FVec Ideal ⟨2, ![1, N]⟩ .f32) (p : Fin M) (p' : Fin M')
    (hh : ∀ k : Fin K, h (ix2 p k) = h' (ix2 p' k)) (q : Fin N) :
    Cert.Spec.headRow h w r (ix2 p q) = Cert.Spec.headRow h' w r (ix2 p' q) :=
  logSoftmax_row _ _ p p' (fun q => logitsRow_row h h' w r p p' hh q) q

/-- The offsets (0, 0), however spelt, are the zero offsets. -/
theorem hz : (![0, 0] : Fin 2 → Nat) = fun _ => 0 := funext fun a => by fin_cases a <;> rfl

/-- The printed index maps over the ten points: the feature block moves with the output block along the rows, and every other
    block index is zero. -/
theorem idx_facts : ∀ t : Fin cfg6.N, win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 9 :=
  (by decide +kernel : ∀ t : Fin grid6.N, _)

/-- Every row block of the output is some point's. -/
theorem idx_onto : ∀ q0 : Fin 10, ∃ t : Fin cfg6.N, win6_3.index t = ![q0.val, 0] :=
  (by decide +kernel : ∀ q0 : Fin 10, ∃ t : Fin grid6.N, win6_3.index t = ![q0.val, 0])

variable (V : (c : Dev nD) → (b : Ref sig .tc) → Buf (Elt Ideal) ((c : Thread nD τ).loc b)) (c : Dev nD)

/-- What point t writes back is its block of the head of the whole arrays: entry (p, q) of the block's head reads row p of the
    feature block, which is row 10000 · (block index) + p of the feature array, and the whole weight matrix and bias row;
    the output block's entry (p, q) sits at that same row and at column q of the output array. -/
theorem flushed_eq (t : Fin cfg6.N) :
    (dat6 (F := Ideal) V c).flushed 3 t
      = ((cfg6.win 3).blk t).view.read (Elt Ideal) (Cert.Spec.headRow (V c main_v75) (V c main_arg8) (V c main_v76)) := by
  show (cfg6.win 3).cut (grid6.coords t) ((dat6 V c).after 3 t) = _
  rw [after6_3]
  unfold out6_3
  rw [View.canon_unit_zero hz]
  simp only [View.ld_unit_zero (S := S10000x64) hz, View.ld_unit_zero (S := S64x2) hz, View.ld_unit_zero (S := S1x2) hz]
  rw [pay6_eq]
  obtain ⟨e0, e1, e2, e3, e4, e5, e6, e7⟩ := idx_facts t
  have hw : (iblk6 V c 1 t : Vec Ideal S64x2 .f32) = V c main_arg8 := by
    funext y
    show V c main_arg8 (((cfg6.win 1).blk t).view.emb y) = V c main_arg8 y
    refine congrArg _ (funext fun a => Fin.ext ?_)
    match a with
    | ⟨0, _⟩ => show win6_1.index t (0 : Fin 2) * 64 + 1 * (y 0).val = (y 0).val; omega
    | ⟨1, _⟩ => show win6_1.index t (1 : Fin 2) * 2 + 1 * (y 1).val = (y 1).val; omega
  have hr : (iblk6 V c 2 t : Vec Ideal S1x2 .f32) = V c main_v76 := by
    funext y
    show V c main_v76 (((cfg6.win 2).blk t).view.emb y) = V c main_v76 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 2 + 1 * (y 1).val = (y 1).val; omega
  funext j
  obtain ⟨p, q, rfl⟩ : ∃ (p : Fin 10000) (q : Fin 2), j = ix2 p q := ⟨j 0, j 1, eq_ix2 j⟩
  have hp : win6_3.index t (0 : Fin 2) * 10000 + p.val < 100000 := by have := p.isLt; omega
  have hemb : ((cfg6.win 3).blk t).view.emb (ix2 p q) = ix2 (⟨win6_3.index t (0 : Fin 2) * 10000 + p.val, hp⟩ : Fin 100000) q := by
    refine funext fun a => Fin.ext ?_
    match a with
    | ⟨0, _⟩ => show win6_3.index t (0 : Fin 2) * 10000 + 1 * p.val = win6_3.index t (0 : Fin 2) * 10000 + p.val; omega
    | ⟨1, _⟩ => show win6_3.index t (1 : Fin 2) * 2 + 1 * q.val = q.val; omega
  show Cert.Spec.headRow (iblk6 V c 0 t) (iblk6 V c 1 t) (iblk6 V c 2 t) (ix2 p q)
    = Cert.Spec.headRow (V c main_v75) (V c main_arg8) (V c main_v76) (((cfg6.win 3).blk t).view.emb (ix2 p q))
  rw [hemb, hw, hr]
  refine headRow_row _ _ _ _ p _ (fun k => ?_) q
  show V c main_v75 (((cfg6.win 0).blk t).view.emb (ix2 p k)) = V c main_v75 (ix2 (⟨win6_3.index t (0 : Fin 2) * 10000 + p.val, hp⟩ : Fin 100000) k)
  refine congrArg _ (funext fun a => Fin.ext ?_)
  match a with
  | ⟨0, _⟩ => show win6_0.index t (0 : Fin 2) * 10000 + 1 * p.val = win6_3.index t (0 : Fin 2) * 10000 + p.val; omega
  | ⟨1, _⟩ => show win6_0.index t (1 : Fin 2) * 64 + 1 * k.val = k.val; omega

/-- An index of the output array is in point t's block iff each coordinate is in the block's range on its axis. -/
theorem mem_blk (t : Fin cfg6.N) (i : S100000x2.Idx) :
    i ∈ ((cfg6.win 3).blk t).view.set ↔ ∀ a : Fin 2, win6_3.index t a * S10000x2.size a ≤ (i a).val ∧ (i a).val < win6_3.index t a * S10000x2.size a + S10000x2.size a := by
  show i ∈ ((View.whole main_v77).slice (win6_3.rect t)).set ↔ _
  rw [View.set_slice_whole, Rect.mem_set_unit]
  exact Iff.rfl

/-- Every entry of the output array is in the block of the point that owns its row: row r lies in row block r / 10000. -/
theorem cover (i : S100000x2.Idx) : ∃ t : Fin cfg6.N, (cfg6.win 3).flush t = true ∧ i ∈ ((cfg6.win 3).blk t).view.set := by
  have hi0 : (i 0).val < 100000 := (i 0).isLt
  have hi1 : (i 1).val < 2 := (i 1).isLt
  obtain ⟨t, ht⟩ := idx_onto ⟨(i 0).val / 10000, by omega⟩
  have q0 : win6_3.index t (0 : Fin 2) = (i 0).val / 10000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 2 ≤ (i 1).val ∧ (i 1).val < win6_3.index t (1 : Fin 2) * 2 + 2; omega

/-- What the region leaves in its output array: the head (affine map, then the row-wise log-softmax) of the feature
    array, the weights and the bias row as the region finds them. -/
theorem region6_value :
    (dat6 (F := Ideal) V c).arrAt 3 cfg6.N = Cert.Spec.headRow (V c main_v75) (V c main_arg8) (V c main_v76) :=
  (dat6 V c).arrAt_eq_of_cover 3 _ (fun t _ => flushed_eq V c t) cover

end Cert.KernelIdeal.Head
end
-- ==== Proof.KChain.lean ====
/-
  The kernel program's result, followed back through its seven regions and the host stretches between them to the launch
  memory.

  The boundary contents are a fold: a region leaves in its output array a whole-array function of the arrays it reads
  (the dense transform h · W, the bias-and-maximum stage, the log-softmax head), a host stretch leaves the aggregation of
  the table it finds and the next bias vector recast as a one-row matrix, and whatever a segment does not write is
  unchanged. Composing these from the last boundary back, with the argument arrays at their launch contents and the ids
  and weights as the first stretches built them from the edge list, the result array is the network of the arguments.
-/
import proofs.«122782_j74371653697680_1_alg».proof.Proof.Gen.KernelIdeal.Frame
import proofs.«122782_j74371653697680_1_alg».proof.Proof.Spec
import proofs.«122782_j74371653697680_1_alg».proof.Proof.HostFns
import proofs.«122782_j74371653697680_1_alg».proof.Proof.KKeep
import proofs.«122782_j74371653697680_1_alg».proof.Proof.KHost
import proofs.«122782_j74371653697680_1_alg».proof.Proof.KDense
import proofs.«122782_j74371653697680_1_alg».proof.Proof.KHead

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The ids and weights of the aggregation, at any boundary where the three buffers are as the first region found them:
    the aggregation from the buffers is the aggregation over the edge list. -/
theorem aggB_of_edge (c : Dev nD) (h : FVec Ideal Cert.ReferenceIdeal.S100000x64 .f32) :
    Cert.Net.aggB h (W3 m ρ c (Proc.devRef .tc main_v3)) (W3 m ρ c (Proc.devRef .tc main_v6)) (W3 m ρ c (Proc.devRef .tc main_v30))
      = Cert.Net.agg h (m ((c : Thread nD τ).loc main_arg1)) := by
  rw [Cert.KernelIdeal.HostV.src_at3, Cert.KernelIdeal.HostV.dst_at3, Cert.KernelIdeal.HostV.ncol_at3]
  rfl

/-! ## Layer 1 -/

/-- The first dense transform: x · W1. -/
theorem v31_value (c : Dev nD) : W4 m ρ c (Proc.devRef .tc main_v31) = Cert.Spec.mm (m ((c : Thread nD τ).loc main_arg0)) (m ((c : Thread nD τ).loc main_arg2)) := by
  have h := (W4_arr m ρ c 2).trans (Cert.KernelIdeal.Dense.region0_value (V3 m ρ) c)
  have e0 : V3 m ρ c main_arg0 = (m ((c : Thread nD τ).loc main_arg0)) := Cert.KernelIdeal.Keep.arg0_at3 m ρ c
  have e2 : V3 m ρ c main_arg2 = (m ((c : Thread nD τ).loc main_arg2)) := Cert.KernelIdeal.Keep.arg2_at3 m ρ c
  rw [e0, e2] at h
  exact h

/-- Its aggregation over the edge list. -/
theorem v43_value (c : Dev nD) : W5 m ρ c (Proc.devRef .tc main_v43)
    = Cert.Net.agg (Cert.Spec.mm (m ((c : Thread nD τ).loc main_arg0)) (m ((c : Thread nD τ).loc main_arg2))) (m ((c : Thread nD τ).loc main_arg1)) := by
  refine (Cert.KernelIdeal.HostV.v43_of (W4 m ρ c)).trans ?_
  rw [v31_value, Cert.KernelIdeal.Keep.v3_at4, Cert.KernelIdeal.Keep.v6_at4, Cert.KernelIdeal.Keep.v30_at4]
  exact aggB_of_edge m ρ c _

/-- The first bias as a one-row matrix. -/
theorem v44_value (c : Dev nD) : W5 m ρ c (Proc.devRef .tc main_v44)
    = shapeCast S1x64 (m ((c : Thread nD τ).loc main_arg3)) shapeCasts_S64_S1x64 := by
  refine (Cert.KernelIdeal.HostV.v44_of (W4 m ρ c)).trans ?_
  rw [Cert.KernelIdeal.Keep.arg3_at4]

/-- The first layer. -/
theorem v45_value (c : Dev nD) : W6 m ρ c (Proc.devRef .tc main_v45)
    = Cert.Net.layer (m ((c : Thread nD τ).loc main_arg0)) (m ((c : Thread nD τ).loc main_arg2)) (m ((c : Thread nD τ).loc main_arg3)) (m ((c : Thread nD τ).loc main_arg1)) := by
  have h := (W6_arr m ρ c 2).trans (Cert.KernelIdeal.Dense.region1_value (V5 m ρ) c)
  have e0 : V5 m ρ c main_v43 = _ := v43_value m ρ c
  have e1 : V5 m ρ c main_v44 = _ := v44_value m ρ c
  rw [e0, e1, Cert.Spec.biasReluRow_cast] at h
  exact h

/-! ## Layer 2 -/

/-- The second dense transform. -/
theorem v46_value (c : Dev nD) : W7 m ρ c (Proc.devRef .tc main_v46)
    = Cert.Spec.mm (Cert.Net.layer (m ((c : Thread nD τ).loc main_arg0)) (m ((c : Thread nD τ).loc main_arg2)) (m ((c : Thread nD τ).loc main_arg3)) (m ((c : Thread nD τ).loc main_arg1))) (m ((c : Thread nD τ).loc main_arg4)) := by
  have h := (W7_arr m ρ c 2).trans (Cert.KernelIdeal.Dense.region2_value (V6 m ρ) c)
  have e0 : V6 m ρ c main_v45 = _ := v45_value m ρ c
  have e1 : V6 m ρ c main_arg4 = (m ((c : Thread nD τ).loc main_arg4)) := Cert.KernelIdeal.Keep.arg4_at6 m ρ c
  rw [e0, e1] at h
  exact h

/-- Its aggregation. -/
theorem v58_value (c : Dev nD) : W8 m ρ c (Proc.devRef .tc main_v58)
    = Cert.Net.agg (Cert.Spec.mm (Cert.Net.layer (m ((c : Thread nD τ).loc main_arg0)) (m ((c : Thread nD τ).loc main_arg2)) (m ((c : Thread nD τ).loc main_arg3)) (m ((c : Thread nD τ).loc main_arg1))) (m ((c : Thread nD τ).loc main_arg4))) (m ((c : Thread nD τ).loc main_arg1)) := by
  refine (Cert.KernelIdeal.HostV.v58_of (W7 m ρ c)).trans ?_
  rw [v46_value, Cert.KernelIdeal.Keep.v3_at7, Cert.KernelIdeal.Keep.v6_at7, Cert.KernelIdeal.Keep.v30_at7]
  exact aggB_of_edge m ρ c _

/-- The second bias as a one-row matrix. -/
theorem v59_value (c : Dev nD) : W8 m ρ c (Proc.devRef .tc main_v59)
    = shapeCast S1x64 (m ((c : Thread nD τ).loc main_arg5)) shapeCasts_S64_S1x64 := by
  refine (Cert.KernelIdeal.HostV.v59_of (W7 m ρ c)).trans ?_
  rw [Cert.KernelIdeal.Keep.arg5_at7]

/-- The second layer. -/
theorem v60_value (c : Dev nD) : W9 m ρ c (Proc.devRef .tc main_v60)
    = Cert.Net.layer (Cert.Net.layer (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1)) := by
  have h := (W9_arr m ρ c 2).trans (Cert.KernelIdeal.Dense.region3_value (V8 m ρ) c)
  have e0 : V8 m ρ c main_v58 = _ := v58_value m ρ c
  have e1 : V8 m ρ c main_v59 = _ := v59_value m ρ c
  rw [e0, e1, Cert.Spec.biasReluRow_cast] at h
  exact h

/-! ## Layer 3 -/

/-- The third dense transform. -/
theorem v61_value (c : Dev nD) : W10 m ρ c (Proc.devRef .tc main_v61)
    = Cert.Spec.mm (Cert.Net.layer (Cert.Net.layer (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) := by
  have h := (W10_arr m ρ c 2).trans (Cert.KernelIdeal.Dense.region4_value (V9 m ρ) c)
  have e0 : V9 m ρ c main_v60 = _ := v60_value m ρ c
  have e1 : V9 m ρ c main_arg6 = (m ((c : Thread nD τ).loc main_arg6)) := Cert.KernelIdeal.Keep.arg6_at9 m ρ c
  rw [e0, e1] at h
  exact h

/-- Its aggregation. -/
theorem v73_value (c : Dev nD) : W11 m ρ c (Proc.devRef .tc main_v73)
    = Cert.Net.agg (Cert.Spec.mm (Cert.Net.layer (Cert.Net.layer (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6))) (m ((c : Thread nD τ).loc main_arg1)) := by
  refine (Cert.KernelIdeal.HostV.v73_of (W10 m ρ c)).trans ?_
  rw [v61_value, Cert.KernelIdeal.Keep.v3_at10, Cert.KernelIdeal.Keep.v6_at10, Cert.KernelIdeal.Keep.v30_at10]
  exact aggB_of_edge m ρ c _

/-- The third bias as a one-row matrix. -/
theorem v74_value (c : Dev nD) : W11 m ρ c (Proc.devRef .tc main_v74)
    = shapeCast S1x64 (m ((c : Thread nD τ).loc main_arg7)) shapeCasts_S64_S1x64 := by
  refine (Cert.KernelIdeal.HostV.v74_of (W10 m ρ c)).trans ?_
  rw [Cert.KernelIdeal.Keep.arg7_at10]

/-- The third layer. -/
theorem v75_value (c : Dev nD) : W12 m ρ c (Proc.devRef .tc main_v75)
    = Cert.Net.layer (Cert.Net.layer (Cert.Net.layer (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1)) := by
  have h := (W12_arr m ρ c 2).trans (Cert.KernelIdeal.Dense.region5_value (V11 m ρ) c)
  have e0 : V11 m ρ c main_v73 = _ := v73_value m ρ c
  have e1 : V11 m ρ c main_v74 = _ := v74_value m ρ c
  rw [e0, e1, Cert.Spec.biasReluRow_cast] at h
  exact h

/-! ## The head -/

/-- The head's bias as a one-row matrix. -/
theorem v76_value (c : Dev nD) : W13 m ρ c (Proc.devRef .tc main_v76)
    = shapeCast S1x2 (m ((c : Thread nD τ).loc main_arg9)) shapeCasts_S2_S1x2 := by
  refine (Cert.KernelIdeal.HostV.v76_of (W12 m ρ c)).trans ?_
  rw [Cert.KernelIdeal.Keep.arg9_at12]

/-- THE RESULT: the last boundary's contents of the result array are the network of the launch memory's arguments. -/
theorem result_value (c : Dev nD) : W14 m ρ c (Proc.devRef .tc main_v77)
    = Cert.Net.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (W14_arr m ρ c 3).trans (Cert.KernelIdeal.Head.region6_value (V13 m ρ) c)
  have e0 : V13 m ρ c main_v75 = _ := (Cert.KernelIdeal.Keep.v75_at13 m ρ c).trans (v75_value m ρ c)
  have e1 : V13 m ρ c main_arg8 = (m ((c : Thread nD τ).loc main_arg8)) := Cert.KernelIdeal.Keep.arg8_at13 m ρ c
  have e2 : V13 m ρ c main_v76 = _ := v76_value m ρ c
  rw [e0, e1, e2, Cert.Spec.headRow_cast] at h
  exact h

end Cert.KernelIdeal.Chain

end
-- ==== Proof.lean ====
/-
  A three-layer graph convolution with a two-class log-softmax head, written as seven tiled kernels among host
  operations, against its array-language reference: the two programs compute the same function of their arguments on
  the extended reals, and each runs to completion, faulting nowhere, with its arguments unchanged.

  With A the edge list's message structure (every node also sends to itself; a message from s to d weighs
  deg(s)^(-1/2) · deg(d)^(-1/2), deg the number of messages a node receives), one layer is
      h ↦ max( Σ over the messages into each node of weight · (h · W)[sender] + b , 0 ),
  and the network is three layers followed by  log_softmax( h · W_lin + b_lin )  along each row.
  The kernel program computes h · W in a tiled kernel (ten blocks of 10000 rows; the inputs recast to a narrower float
  format first, which is the identity on the extended reals), gathers, scales and scatter-adds on the host exactly as the
  reference does, adds the bias and takes the maximum with zero in a second tiled kernel, and fuses the head into a third.
  The reference spells the same steps as whole-array operations. Both are the function `Cert.Net.gcn` of the arguments:

  * the kernel program — its run ends with the result array at the last boundary's contents (`RunV.run_result`); those
    contents are followed back through the seven regions and the host stretches between them (`Chain.result_value`):
    each region's output array is a whole-array function of the arrays it reads (the blocks tile the rows, and a row of
    the output depends on the same row of the input only), each host stretch is the reference's own composition of
    operations, and buffers that a segment does not write keep their contents;
  * the reference — its run ends with the result at the composition of its operations (`RunP.run`), which is the same
    function stage by stage (`RefValue.ref_value`).
  No step uses a law that fails at an infinity (sums are only regrouped by rows, never distributed over), so the
  finiteness of the inputs is not used.
-/
import proofs.«122782_j74371653697680_1_alg».proof.Defs
import proofs.«122782_j74371653697680_1_alg».proof.Proof.Gen.Kernel
import proofs.«122782_j74371653697680_1_alg».proof.Proof.Gen.Kernel.Skeleton
import proofs.«122782_j74371653697680_1_alg».proof.Proof.Gen.Kernel.Launch
import proofs.«122782_j74371653697680_1_alg».proof.Proof.Gen.Kernel.Points
import proofs.«122782_j74371653697680_1_alg».proof.Proof.Gen.Kernel.Frame
import proofs.«122782_j74371653697680_1_alg».proof.Proof.Gen.KernelIdeal
import proofs.«122782_j74371653697680_1_alg».proof.Proof.Gen.KernelIdeal.Skeleton
import proofs.«122782_j74371653697680_1_alg».proof.Proof.Gen.KernelIdeal.Launch
import proofs.«122782_j74371653697680_1_alg».proof.Proof.Gen.KernelIdeal.Points
import proofs.«122782_j74371653697680_1_alg».proof.Proof.Gen.KernelIdeal.Frame
import proofs.«122782_j74371653697680_1_alg».proof.Proof.Gen.ReferenceIdeal
import proofs.«122782_j74371653697680_1_alg».proof.Proof.Gen.Pre_finite_inputs
import proofs.«122782_j74371653697680_1_alg».proof.Proof.RefRun
import proofs.«122782_j74371653697680_1_alg».proof.Proof.RefRead
import proofs.«122782_j74371653697680_1_alg».proof.Proof.RefValue
import proofs.«122782_j74371653697680_1_alg».proof.Proof.KRun
import proofs.«122782_j74371653697680_1_alg».proof.Proof.KChain
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories agreeing on the arguments, both idealized programs end with the result array at the network of the
    arguments. -/
theorem algebraic : Cert.algebraic_KernelIdeal_ReferenceIdeal := by
  intro m ρ m' ρ' _ hagree
  refine ⟨fun c => Cert.Net.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Chain.result_value m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9⟩ := hagree c
    rw [Cert.ReferenceIdeal.ReadP.val_main_v88_eq, Cert.ReferenceIdeal.RefValue.ref_value, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
